-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000 : Shape := ⟨1, ![1000]⟩
abbrev S20000 : Shape := ⟨1, ![20000]⟩
abbrev S4000000 : Shape := ⟨1, ![4000000]⟩
abbrev S_ : Shape := ⟨0, ![]⟩

class Facts : Prop where
  bcast_S_S1000 : S_.BroadcastsInDim S1000 (![] : Fin 0 → Fin S1000.rank)
  reducesTo_S1000_S_d0 : S1000.ReducesTo [0] S_
  h_S_ : 0 < S_.numel
  bcast_S_S20000 : S_.BroadcastsInDim S20000 (![] : Fin 0 → Fin S20000.rank)
  reducesTo_S20000_S_d0 : S20000.ReducesTo [0] S_
  bcast_S_S4000000 : S_.BroadcastsInDim S4000000 (![] : Fin 0 → Fin S4000000.rank)
  reducesTo_S4000000_S_d0 : S4000000.ReducesTo [0] S_

variable [Facts]

def fn_part3 {F : FTy → Type} [FloatOps F] (main_v48 : IVec S_ 1) (main_v49 : FVec F S4000000 .f32) (main_v50 : FVec F S4000000 .f32) : IVec S_ 1 :=
  let main_v51 : IVec S4000000 1 := cmpf .olt main_v49 main_v50
  let main_c_19 : IVec S_ 1 := constantI S_ 1 1#1
  let main_v52 : IVec S_ 1 := (fun x v => Host.reduce IntOp.andi x v reducesTo_S4000000_S_d0 h_S_) main_v51 main_c_19
  let main_v53 : IVec S_ 1 := andi main_v48 main_v52
  main_v53

def fn_part2 {F : FTy → Type} [FloatOps F] (main_arg7 : FVec F S4000000 .f32) (main_arg8 : FVec F S4000000 .f32) (main_arg9 : FVec F S4000000 .f32) (main_arg10 : FVec F S4000000 .f32) (main_v33 : IVec S_ 1) : IVec S_ 1 :=
  let main_v34 : FVec F S4000000 .f32 := Host.absf main_arg7
  let main_cst_12 : FVec F S_ .f32 := constant S_ .f32 0x7F800000#32
  let main_v35 : FVec F S4000000 .f32 := broadcastInDim S4000000 ![] bcast_S_S4000000 main_cst_12
  let main_v36 : IVec S4000000 1 := cmpf .olt main_v34 main_v35
  let main_c_13 : IVec S_ 1 := constantI S_ 1 1#1
  let main_v37 : IVec S_ 1 := (fun x v => Host.reduce IntOp.andi x v reducesTo_S4000000_S_d0 h_S_) main_v36 main_c_13
  let main_v38 : IVec S_ 1 := andi main_v33 main_v37
  let main_v39 : FVec F S4000000 .f32 := Host.absf main_arg8
  let main_cst_14 : FVec F S_ .f32 := constant S_ .f32 0x7F800000#32
  let main_v40 : FVec F S4000000 .f32 := broadcastInDim S4000000 ![] bcast_S_S4000000 main_cst_14
  let main_v41 : IVec S4000000 1 := cmpf .olt main_v39 main_v40
  let main_c_15 : IVec S_ 1 := constantI S_ 1 1#1
  let main_v42 : IVec S_ 1 := (fun x v => Host.reduce IntOp.andi x v reducesTo_S4000000_S_d0 h_S_) main_v41 main_c_15
  let main_v43 : IVec S_ 1 := andi main_v38 main_v42
  let main_v44 : FVec F S4000000 .f32 := Host.absf main_arg9
  let main_cst_16 : FVec F S_ .f32 := constant S_ .f32 0x7F800000#32
  let main_v45 : FVec F S4000000 .f32 := broadcastInDim S4000000 ![] bcast_S_S4000000 main_cst_16
  let main_v46 : IVec S4000000 1 := cmpf .olt main_v44 main_v45
  let main_c_17 : IVec S_ 1 := constantI S_ 1 1#1
  let main_v47 : IVec S_ 1 := (fun x v => Host.reduce IntOp.andi x v reducesTo_S4000000_S_d0 h_S_) main_v46 main_c_17
  let main_v48 : IVec S_ 1 := andi main_v43 main_v47
  let main_v49 : FVec F S4000000 .f32 := Host.absf main_arg10
  let main_cst_18 : FVec F S_ .f32 := constant S_ .f32 0x7F800000#32
  let main_v50 : FVec F S4000000 .f32 := broadcastInDim S4000000 ![] bcast_S_S4000000 main_cst_18
  fn_part3 (F := F) main_v48 main_v49 main_v50

def fn_part1 {F : FTy → Type} [FloatOps F] (main_arg4 : FVec F S1000 .f32) (main_arg5 : FVec F S20000 .f32) (main_arg6 : FVec F S4000000 .f32) (main_arg7 : FVec F S4000000 .f32) (main_arg8 : FVec F S4000000 .f32) (main_arg9 : FVec F S4000000 .f32) (main_arg10 : FVec F S4000000 .f32) (main_v13 : IVec S_ 1) (main_v16 : IVec S20000 1) : IVec S_ 1 :=
  let main_c_5 : IVec S_ 1 := constantI S_ 1 1#1
  let main_v17 : IVec S_ 1 := (fun x v => Host.reduce IntOp.andi x v reducesTo_S20000_S_d0 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_v24 : FVec F S20000 .f32 := Host.absf main_arg5
  let main_cst_8 : FVec F S_ .f32 := constant S_ .f32 0x7F800000#32
  let main_v25 : FVec F S20000 .f32 := broadcastInDim S20000 ![] bcast_S_S20000 main_cst_8
  let main_v26 : IVec S20000 1 := cmpf .olt main_v24 main_v25
  let main_c_9 : IVec S_ 1 := constantI S_ 1 1#1
  let main_v27 : IVec S_ 1 := (fun x v => Host.reduce IntOp.andi x v reducesTo_S20000_S_d0 h_S_) main_v26 main_c_9
  let main_v28 : IVec S_ 1 := andi main_v23 main_v27
  let main_v29 : FVec F S4000000 .f32 := Host.absf main_arg6
  let main_cst_10 : FVec F S_ .f32 := constant S_ .f32 0x7F800000#32
  let main_v30 : FVec F S4000000 .f32 := broadcastInDim S4000000 ![] bcast_S_S4000000 main_cst_10
  let main_v31 : IVec S4000000 1 := cmpf .olt main_v29 main_v30
  let main_c_11 : IVec S_ 1 := constantI S_ 1 1#1
  let main_v32 : IVec S_ 1 := (fun x v => Host.reduce IntOp.andi x v reducesTo_S4000000_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1000 .f32) (main_arg1 : FVec F S1000 .f32) (main_arg2 : FVec F S20000 .f32) (main_arg3 : FVec F S20000 .f32) (main_arg4 : FVec F S1000 .f32) (main_arg5 : FVec F S20000 .f32) (main_arg6 : FVec F S4000000 .f32) (main_arg7 : FVec F S4000000 .f32) (main_arg8 : FVec F S4000000 .f32) (main_arg9 : FVec F S4000000 .f32) (main_arg10 : FVec F S4000000 .f32) (main_arg11 : IVec S20000 32) (main_arg12 : IVec S4000000 32) (main_arg13 : IVec S4000000 32) (main_arg14 : IVec S4000000 32) (main_arg15 : IVec S4000000 32) : IVec S_ 1 :=
  let main_v0 : FVec F S1000 .f32 := Host.absf main_arg0
  let main_cst : FVec F S_ .f32 := constant S_ .f32 0x7F800000#32
  let main_v1 : FVec F S1000 .f32 := broadcastInDim S1000 ![] bcast_S_S1000 main_cst
  let main_v2 : IVec S1000 1 := cmpf .olt main_v0 main_v1
  let main_c : IVec S_ 1 := constantI S_ 1 1#1
  let main_v3 : IVec S_ 1 := (fun x v => Host.reduce IntOp.andi x v reducesTo_S1000_S_d0 h_S_) main_v2 main_c
  let main_v4 : FVec F S1000 .f32 := Host.absf main_arg1
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  let main_v9 : FVec F S20000 .f32 := Host.absf main_arg2
  let main_cst_2 : FVec F S_ .f32 := constant S_ .f32 0x7F800000#32
  let main_v10 : FVec F S20000 .f32 := broadcastInDim S20000 ![] bcast_S_S20000 main_cst_2
  let main_v11 : IVec S20000 1 := cmpf .olt main_v9 main_v10
  let main_c_3 : IVec S_ 1 := constantI S_ 1 1#1
  let main_v12 : IVec S_ 1 := (fun x v => Host.reduce IntOp.andi x v reducesTo_S20000_S_d0 h_S_) main_v11 main_c_3
  let main_v13 : IVec S_ 1 := andi main_v8 main_v12
  let main_v14 : FVec F S20000 .f32 := Host.absf main_arg3
  let main_cst_4 : FVec F S_ .f32 := constant S_ .f32 0x7F800000#32
  let main_v15 : FVec F S20000 .f32 := broadcastInDim S20000 ![] bcast_S_S20000 main_cst_4
  let main_v16 : IVec S20000 1 := cmpf .olt main_v14 main_v15
  fn_part1 (F := F) main_arg4 main_arg5 main_arg6 main_arg7 main_arg8 main_arg9 main_arg10 main_v13 main_v16
-- ==== Kernel.lean ====
abbrev S1000 : Shape := ⟨1, ![1000]⟩
abbrev S20000 : Shape := ⟨1, ![20000]⟩
abbrev S4000000 : Shape := ⟨1, ![4000000]⟩
abbrev S_ : Shape := ⟨0, ![]⟩
abbrev S4000000x1 : Shape := ⟨2, ![4000000, 1]⟩
abbrev S4096000 : Shape := ⟨1, ![4096000]⟩
abbrev S32000x128 : Shape := ⟨2, ![32000, 128]⟩
abbrev S1x128 : Shape := ⟨2, ![1, 128]⟩
abbrev S2000x128 : Shape := ⟨2, ![2000, 128]⟩
abbrev S128 : Shape := ⟨1, ![128]⟩

abbrev nBuf : Space → Nat
  | .hbm => 150
  | .vmem => 19
  | .smem => 0
  | _ => 0

abbrev hbmTy0_0 (i : Nat) : BufTy := match i % 128 with
  | 0 => ⟨S1000, .f32⟩
  | 1 => ⟨S1000, .f32⟩
  | 2 => ⟨S20000, .f32⟩
  | 3 => ⟨S20000, .f32⟩
  | 4 => ⟨S1000, .f32⟩
  | 5 => ⟨S20000, .f32⟩
  | 6 => ⟨S4000000, .f32⟩
  | 7 => ⟨S4000000, .f32⟩
  | 8 => ⟨S4000000, .f32⟩
  | 9 => ⟨S4000000, .f32⟩
  | 10 => ⟨S4000000, .f32⟩
  | 11 => ⟨S20000, .i32⟩
  | 12 => ⟨S4000000, .i32⟩
  | 13 => ⟨S4000000, .i32⟩
  | 14 => ⟨S4000000, .i32⟩
  | 15 => ⟨S4000000, .i32⟩
  | 16 => ⟨S1000, .f32⟩
  | 17 => ⟨S1000, .f32⟩
  | 18 => ⟨S1000, .f32⟩
  | 19 => ⟨S_, .f32⟩
  | 20 => ⟨S1000, .f32⟩
  | 21 => ⟨S1000, .f32⟩
  | 22 => ⟨S1000, .f32⟩
  | 23 => ⟨S1000, .f32⟩
  | 24 => ⟨S_, .f32⟩
  | 25 => ⟨S1000, .f32⟩
  | 26 => ⟨S1000, .f32⟩
  | 27 => ⟨S_, .f32⟩
  | 28 => ⟨S_, .f32⟩
  | 29 => ⟨S20000, .f32⟩
  | 30 => ⟨S_, .f32⟩
  | 31 => ⟨S20000, .f32⟩
  | 32 => ⟨S20000, .f32⟩
  | 33 => ⟨S20000, .f32⟩
  | 34 => ⟨S20000, .f32⟩
  | 35 => ⟨S20000, .f32⟩
  | 36 => ⟨S_, .f32⟩
  | 37 => ⟨S20000, .f32⟩
  | 38 => ⟨S20000, .f32⟩
  | 39 => ⟨S20000, .f32⟩
  | 40 => ⟨S20000, .f32⟩
  | 41 => ⟨S_, .f32⟩
  | 42 => ⟨S20000, .f32⟩
  | 43 => ⟨S20000, .f32⟩
  | 44 => ⟨S20000, .f32⟩
  | 45 => ⟨S_, .f32⟩
  | 46 => ⟨S_, .f32⟩
  | 47 => ⟨S_, .f32⟩
  | 48 => ⟨S_, .i32⟩
  | 49 => ⟨S4000000, .i32⟩
  | 50 => ⟨S4000000, .i1⟩
  | 51 => ⟨S4000000, .i1⟩
  | 52 => ⟨S_, .i32⟩
  | 53 => ⟨S4000000, .i32⟩
  | 54 => ⟨S4000000, .i1⟩
  | 55 => ⟨S_, .i32⟩
  | 56 => ⟨S4000000, .i32⟩
  | 57 => ⟨S4000000, .i32⟩
  | 58 => ⟨S4000000, .i32⟩
  | 59 => ⟨S4000000x1, .i32⟩
  | 60 => ⟨S4000000, .f32⟩
  | 61 => ⟨S_, .i32⟩
  | 62 => ⟨S4000000, .i32⟩
  | 63 => ⟨S4000000, .i1⟩
  | 64 => ⟨S_, .i32⟩
  | 65 => ⟨S4000000, .i32⟩
  | 66 => ⟨S4000000, .i32⟩
  | 67 => ⟨S4000000, .i32⟩
  | 68 => ⟨S4000000x1, .i32⟩
  | 69 => ⟨S4000000, .f32⟩
  | 70 => ⟨S4000000, .f32⟩
  | 71 => ⟨S_, .i32⟩
  | 72 => ⟨S4000000, .i32⟩
  | 73 => ⟨S4000000, .i1⟩
  | 74 => ⟨S_, .i32⟩
  | 75 => ⟨S4000000, .i32⟩
  | 76 => ⟨S4000000, .i32⟩
  | 77 => ⟨S4000000, .i32⟩
  | 78 => ⟨S4000000x1, .i32⟩
  | 79 => ⟨S4000000, .f32⟩
  | 80 => ⟨S_, .i32⟩
  | 81 => ⟨S4000000, .i32⟩
  | 82 => ⟨S4000000, .i1⟩
  | 83 => ⟨S_, .i32⟩
  | 84 => ⟨S4000000, .i32⟩
  | 85 => ⟨S4000000, .i32⟩
  | 86 => ⟨S4000000, .i32⟩
  | 87 => ⟨S4000000x1, .i32⟩
  | 88 => ⟨S4000000, .f32⟩
  | 89 => ⟨S4000000, .f32⟩
  | 90 => ⟨S_, .i32⟩
  | 91 => ⟨S4000000, .i32⟩
  | 92 => ⟨S4000000, .i1⟩
  | 93 => ⟨S_, .i32⟩
  | 94 => ⟨S4000000, .i32⟩
  | 95 => ⟨S4000000, .i32⟩
  | 96 => ⟨S4000000, .i32⟩
  | 97 => ⟨S4000000x1, .i32⟩
  | 98 => ⟨S4000000, .f32⟩
  | 99 => ⟨S_, .i32⟩
  | 100 => ⟨S4000000, .i32⟩
  | 101 => ⟨S4000000, .i1⟩
  | 102 => ⟨S_, .i32⟩
  | 103 => ⟨S4000000, .i32⟩
  | 104 => ⟨S4000000, .i32⟩
  | 105 => ⟨S4000000, .i32⟩
  | 106 => ⟨S4000000x1, .i32⟩
  | 107 => ⟨S4000000, .f32⟩
  | 108 => ⟨S_, .f32⟩
  | 109 => ⟨S_, .f32⟩
  | 110 => ⟨S4096000, .f32⟩
  | 111 => ⟨S32000x128, .f32⟩
  | 112 => ⟨S_, .f32⟩
  | 113 => ⟨S_, .f32⟩
  | 114 => ⟨S4096000, .f32⟩
  | 115 => ⟨S32000x128, .f32⟩
  | 116 => ⟨S_, .f32⟩
  | 117 => ⟨S_, .f32⟩
  | 118 => ⟨S4096000, .f32⟩
  | 119 => ⟨S32000x128, .f32⟩
  | 120 => ⟨S_, .f32⟩
  | 121 => ⟨S_, .f32⟩
  | 122 => ⟨S4096000, .f32⟩
  | 123 => ⟨S32000x128, .f32⟩
  | 124 => ⟨S_, .f32⟩
  | 125 => ⟨S_, .f32⟩
  | 126 => ⟨S4096000, .f32⟩
  | 127 => ⟨S32000x128, .f32⟩
  | _ => ⟨S1000, .f32⟩

abbrev hbmTy0_1 (i : Nat) : BufTy := match i % 128 with
  | 0 => ⟨S_, .f32⟩
  | 1 => ⟨S_, .f32⟩
  | 2 => ⟨S4096000, .f32⟩
  | 3 => ⟨S32000x128, .f32⟩
  | 4 => ⟨S_, .f32⟩
  | 5 => ⟨S_, .f32⟩
  | 6 => ⟨S4096000, .f32⟩
  | 7 => ⟨S32000x128, .f32⟩
  | 8 => ⟨S_, .f32⟩
  | 9 => ⟨S_, .f32⟩
  | 10 => ⟨S4096000, .f32⟩
  | 11 => ⟨S32000x128, .f32⟩
  | 12 => ⟨S_, .f32⟩
  | 13 => ⟨S_, .f32⟩
  | 14 => ⟨S4096000, .f32⟩
  | 15 => ⟨S32000x128, .f32⟩
  | 16 => ⟨S1x128, .f32⟩
  | 17 => ⟨S_, .f32⟩
  | 18 => ⟨S_, .f32⟩
  | 19 => ⟨S_, .f32⟩
  | 20 => ⟨S_, .f32⟩
  | 21 => ⟨S_, .f32⟩
  | _ => ⟨S1000, .f32⟩

abbrev hbmTy (i : Nat) : BufTy := match i / 128 with
  | 0 => hbmTy0_0 i
  | 1 => hbmTy0_1 i
  | _ => ⟨S1000, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | _, _ => ⟨S1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_c : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_c_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_12 : Ref sig .tc := ⟨.hbm, 80, rfl⟩
abbrev main_v50 : Ref sig .tc := ⟨.hbm, 81, rfl⟩
abbrev main_v51 : Ref sig .tc := ⟨.hbm, 82, rfl⟩
abbrev main_c_13 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_14 : Ref sig .tc := ⟨.hbm, 90, rfl⟩
abbrev main_v58 : Ref sig .tc := ⟨.hbm, 91, rfl⟩
abbrev main_v59 : Ref sig .tc := ⟨.hbm, 92, rfl⟩
abbrev main_c_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_16 : Ref sig .tc := ⟨.hbm, 99, rfl⟩
abbrev main_v65 : Ref sig .tc := ⟨.hbm, 100, rfl⟩
abbrev main_v66 : Ref sig .tc := ⟨.hbm, 101, rfl⟩
abbrev main_c_17 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_18 : Ref sig .tc := ⟨.hbm, 108, rfl⟩
abbrev main_call2_v0 : Ref sig .tc := ⟨.hbm, 109, rfl⟩
abbrev main_v72 : Ref sig .tc := ⟨.hbm, 110, rfl⟩
abbrev main_v73 : Ref sig .tc := ⟨.hbm, 111, rfl⟩
abbrev main_cst_19 : Ref sig .tc := ⟨.hbm, 112, rfl⟩
abbrev main_call3_v0 : Ref sig .tc := ⟨.hbm, 113, rfl⟩
abbrev main_v74 : Ref sig .tc := ⟨.hbm, 114, rfl⟩
abbrev main_v75 : Ref sig .tc := ⟨.hbm, 115, rfl⟩
abbrev main_cst_20 : Ref sig .tc := ⟨.hbm, 116, rfl⟩
abbrev main_call4_v0 : Ref sig .tc := ⟨.hbm, 117, rfl⟩
abbrev main_v76 : Ref sig .tc := ⟨.hbm, 118, rfl⟩
abbrev main_v77 : Ref sig .tc := ⟨.hbm, 119, rfl⟩
abbrev main_cst_21 : Ref sig .tc := ⟨.hbm, 120, rfl⟩
abbrev main_call5_v0 : Ref sig .tc := ⟨.hbm, 121, rfl⟩
abbrev main_v78 : Ref sig .tc := ⟨.hbm, 122, rfl⟩
abbrev main_v79 : Ref sig .tc := ⟨.hbm, 123, rfl⟩
abbrev main_cst_22 : Ref sig .tc := ⟨.hbm, 124, rfl⟩
abbrev main_call6_v0 : Ref sig .tc := ⟨.hbm, 125, rfl⟩
abbrev main_v80 : Ref sig .tc := ⟨.hbm, 126, rfl⟩
abbrev main_v81 : Ref sig .tc := ⟨.hbm, 127, rfl⟩
abbrev main_cst_23 : Ref sig .tc := ⟨.hbm, 128, rfl⟩
abbrev main_call7_v0 : Ref sig .tc := ⟨.hbm, 129, rfl⟩
abbrev main_v82 : Ref sig .tc := ⟨.hbm, 130, rfl⟩
abbrev main_v83 : Ref sig .tc := ⟨.hbm, 131, rfl⟩
abbrev main_cst_24 : Ref sig .tc := ⟨.hbm, 132, rfl⟩
abbrev main_call8_v0 : Ref sig .tc := ⟨.hbm, 133, rfl⟩
abbrev main_v84 : Ref sig .tc := ⟨.hbm, 134, rfl⟩
abbrev main_v85 : Ref sig .tc := ⟨.hbm, 135, rfl⟩
abbrev main_cst_25 : Ref sig .tc := ⟨.hbm, 136, rfl⟩
abbrev main_call9_v0 : Ref sig .tc := ⟨.hbm, 137, rfl⟩
abbrev main_v86 : Ref sig .tc := ⟨.hbm, 138, rfl⟩
abbrev main_v87 : Ref sig .tc := ⟨.hbm, 139, rfl⟩
abbrev main_cst_26 : Ref sig .tc := ⟨.hbm, 140, rfl⟩
abbrev main_call10_v0 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_27 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  bcast_S_S1000 : S_.BroadcastsInDim S1000 (![] : Fin 0 → Fin S1000.rank)
  reducesTo_S1000_S_d0 : S1000.ReducesTo [0] S_
  h_S_ : 0 < S_.numel
  bcast_S_S20000 : S_.BroadcastsInDim S20000 (![] : Fin 0 → Fin S20000.rank)
  reducesTo_S20000_S_d0 : S20000.ReducesTo [0] S_
  bcast_S_S4000000 : S_.BroadcastsInDim S4000000 (![] : Fin 0 → Fin S4000000.rank)
  bcast_S4000000_S4000000x1_0 : S4000000.BroadcastsInDim S4000000x1 (![0] : Fin 1 → Fin S4000000x1.rank)
  pads_S4000000_S4096000_0960000 : S4000000.Pads (![0] : Fin 1 → Nat) ![96000] ![0] S4096000
  shapeCasts_S4096000_S32000x128 : S4096000.ShapeCasts S32000x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  iota_S2000x128_d0_w32 : S2000x128.Iotas .tc 32 [0]
  iota_S2000x128_d1_w32 : S2000x128.Iotas .tc 32 [1]
  natLt_1_32 : 1 < 32
  reduces_S2000x128_S128 : S2000x128.Reduces [0] S128
  shapeCasts_S128_S1x128 : S128.ShapeCasts S1x128
  shapeCasts_S1x128_S1x128 : S1x128.ShapeCasts S1x128
  reducesTo_S1x128_S_d0_1 : S1x128.ReducesTo [0, 1] S_
  gather_S1000_S4000000x1_S4000000_n_0_n_n_0_1_1_wf : GatherDims.WF S1000 S4000000x1 S4000000 [] [0] [] [0] [] 1 ![1]
  gather_S20000_S4000000x1_S4000000_n_0_n_n_0_1_1_wf : GatherDims.WF S20000 S4000000x1 S4000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S32000x128.size a
  hwx0_0 : ∀ i : grid0.Coords, EltTy.bits .f32 = 32 ∨ (Rect.block (s := S32000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S32000x128.size a
  hwx0_1 : ∀ i : grid0.Coords, EltTy.bits .f32 = 32 ∨ (Rect.block (s := S32000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S32000x128.size a
  hwx0_2 : ∀ i : grid0.Coords, EltTy.bits .f32 = 32 ∨ (Rect.block (s := S32000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S32000x128.size a
  hwx0_3 : ∀ i : grid0.Coords, EltTy.bits .f32 = 32 ∨ (Rect.block (s := S32000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S32000x128.size a
  hwx0_4 : ∀ i : grid0.Coords, EltTy.bits .f32 = 32 ∨ (Rect.block (s := S32000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S32000x128.size a
  hwx0_5 : ∀ i : grid0.Coords, EltTy.bits .f32 = 32 ∨ (Rect.block (s := S32000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S32000x128.size a
  hwx0_6 : ∀ i : grid0.Coords, EltTy.bits .f32 = 32 ∨ (Rect.block (s := S32000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S32000x128.size a
  hwx0_7 : ∀ i : grid0.Coords, EltTy.bits .f32 = 32 ∨ (Rect.block (s := S32000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S32000x128.size a
  hwx0_8 : ∀ i : grid0.Coords, EltTy.bits .f32 = 32 ∨ (Rect.block (s := S32000x128) S2000x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)

variable [Facts₀]

def gather_S1000_S4000000x1_S4000000_n_0_n_n_0_1_1 : GatherDims S1000 S4000000x1 S4000000 where
  offsetDims := []
  collapsedSliceDims := [0]
  operandBatchingDims := []
  startIndicesBatchingDims := []
  startIndexMap := [0]
  indexVectorDim := 1
  sliceSizes := ![1]
  wf := gather_S1000_S4000000x1_S4000000_n_0_n_n_0_1_1_wf
def gather_S20000_S4000000x1_S4000000_n_0_n_n_0_1_1 : GatherDims S20000 S4000000x1 S4000000 where
  offsetDims := []
  collapsedSliceDims := [0]
  operandBatchingDims := []
  startIndicesBatchingDims := []
  startIndexMap := [0]
  indexVectorDim := 1
  sliceSizes := ![1]
  wf := gather_S20000_S4000000x1_S4000000_n_0_n_n_0_1_1_wf

abbrev win0_0 : Pipeline.Window sig grid0 :=
  Pipeline.Window.ofSpec (Memref.whole main_v73) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v75) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v77) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v79) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v81) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v83) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v85) S2000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v87) S2000x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v89) S2000x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v90) S1x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000 : Shape := ⟨1, ![1000]⟩
abbrev S20000 : Shape := ⟨1, ![20000]⟩
abbrev S4000000 : Shape := ⟨1, ![4000000]⟩
abbrev S_ : Shape := ⟨0, ![]⟩
abbrev S4000000x1 : Shape := ⟨2, ![4000000, 1]⟩

abbrev nBuf : Space → Nat
  | .hbm => 150
  | .vmem => 0
  | .smem => 0
  | _ => 0

abbrev hbmTy0_0 (i : Nat) : BufTy := match i % 128 with
  | 0 => ⟨S1000, .f32⟩
  | 1 => ⟨S1000, .f32⟩
  | 2 => ⟨S20000, .f32⟩
  | 3 => ⟨S20000, .f32⟩
  | 4 => ⟨S1000, .f32⟩
  | 5 => ⟨S20000, .f32⟩
  | 6 => ⟨S4000000, .f32⟩
  | 7 => ⟨S4000000, .f32⟩
  | 8 => ⟨S4000000, .f32⟩
  | 9 => ⟨S4000000, .f32⟩
  | 10 => ⟨S4000000, .f32⟩
  | 11 => ⟨S20000, .i32⟩
  | 12 => ⟨S4000000, .i32⟩
  | 13 => ⟨S4000000, .i32⟩
  | 14 => ⟨S4000000, .i32⟩
  | 15 => ⟨S4000000, .i32⟩
  | 16 => ⟨S1000, .f32⟩
  | 17 => ⟨S1000, .f32⟩
  | 18 => ⟨S1000, .f32⟩
  | 19 => ⟨S_, .f32⟩
  | 20 => ⟨S1000, .f32⟩
  | 21 => ⟨S1000, .f32⟩
  | 22 => ⟨S1000, .f32⟩
  | 23 => ⟨S1000, .f32⟩
  | 24 => ⟨S_, .f32⟩
  | 25 => ⟨S1000, .f32⟩
  | 26 => ⟨S1000, .f32⟩
  | 27 => ⟨S_, .f32⟩
  | 28 => ⟨S_, .f32⟩
  | 29 => ⟨S20000, .f32⟩
  | 30 => ⟨S_, .f32⟩
  | 31 => ⟨S20000, .f32⟩
  | 32 => ⟨S20000, .f32⟩
  | 33 => ⟨S20000, .f32⟩
  | 34 => ⟨S20000, .f32⟩
  | 35 => ⟨S20000, .f32⟩
  | 36 => ⟨S_, .f32⟩
  | 37 => ⟨S20000, .f32⟩
  | 38 => ⟨S20000, .f32⟩
  | 39 => ⟨S20000, .f32⟩
  | 40 => ⟨S20000, .f32⟩
  | 41 => ⟨S_, .f32⟩
  | 42 => ⟨S20000, .f32⟩
  | 43 => ⟨S20000, .f32⟩
  | 44 => ⟨S20000, .f32⟩
  | 45 => ⟨S_, .f32⟩
  | 46 => ⟨S_, .f32⟩
  | 47 => ⟨S_, .f32⟩
  | 48 => ⟨S_, .i32⟩
  | 49 => ⟨S4000000, .i32⟩
  | 50 => ⟨S4000000, .i1⟩
  | 51 => ⟨S4000000, .i1⟩
  | 52 => ⟨S_, .i32⟩
  | 53 => ⟨S4000000, .i32⟩
  | 54 => ⟨S4000000, .i1⟩
  | 55 => ⟨S_, .i32⟩
  | 56 => ⟨S4000000, .i32⟩
  | 57 => ⟨S4000000, .i32⟩
  | 58 => ⟨S4000000, .i32⟩
  | 59 => ⟨S4000000x1, .i32⟩
  | 60 => ⟨S4000000, .f32⟩
  | 61 => ⟨S_, .i32⟩
  | 62 => ⟨S4000000, .i32⟩
  | 63 => ⟨S4000000, .i1⟩
  | 64 => ⟨S_, .i32⟩
  | 65 => ⟨S4000000, .i32⟩
  | 66 => ⟨S4000000, .i32⟩
  | 67 => ⟨S4000000, .i32⟩
  | 68 => ⟨S4000000x1, .i32⟩
  | 69 => ⟨S4000000, .f32⟩
  | 70 => ⟨S4000000, .f32⟩
  | 71 => ⟨S_, .i32⟩
  | 72 => ⟨S4000000, .i32⟩
  | 73 => ⟨S4000000, .i1⟩
  | 74 => ⟨S_, .i32⟩
  | 75 => ⟨S4000000, .i32⟩
  | 76 => ⟨S4000000, .i32⟩
  | 77 => ⟨S4000000, .i32⟩
  | 78 => ⟨S4000000x1, .i32⟩
  | 79 => ⟨S4000000, .f32⟩
  | 80 => ⟨S_, .i32⟩
  | 81 => ⟨S4000000, .i32⟩
  | 82 => ⟨S4000000, .i1⟩
  | 83 => ⟨S_, .i32⟩
  | 84 => ⟨S4000000, .i32⟩
  | 85 => ⟨S4000000, .i32⟩
  | 86 => ⟨S4000000, .i32⟩
  | 87 => ⟨S4000000x1, .i32⟩
  | 88 => ⟨S4000000, .f32⟩
  | 89 => ⟨S4000000, .f32⟩
  | 90 => ⟨S_, .i32⟩
  | 91 => ⟨S4000000, .i32⟩
  | 92 => ⟨S4000000, .i1⟩
  | 93 => ⟨S_, .i32⟩
  | 94 => ⟨S4000000, .i32⟩
  | 95 => ⟨S4000000, .i32⟩
  | 96 => ⟨S4000000, .i32⟩
  | 97 => ⟨S4000000x1, .i32⟩
  | 98 => ⟨S4000000, .f32⟩
  | 99 => ⟨S_, .i32⟩
  | 100 => ⟨S4000000, .i32⟩
  | 101 => ⟨S4000000, .i1⟩
  | 102 => ⟨S_, .i32⟩
  | 103 => ⟨S4000000, .i32⟩
  | 104 => ⟨S4000000, .i32⟩
  | 105 => ⟨S4000000, .i32⟩
  | 106 => ⟨S4000000x1, .i32⟩
  | 107 => ⟨S4000000, .f32⟩
  | 108 => ⟨S4000000, .f32⟩
  | 109 => ⟨S_, .f32⟩
  | 110 => ⟨S4000000, .f32⟩
  | 111 => ⟨S4000000, .f32⟩
  | 112 => ⟨S4000000, .f32⟩
  | 113 => ⟨S4000000, .f32⟩
  | 114 => ⟨S4000000, .f32⟩
  | 115 => ⟨S4000000, .f32⟩
  | 116 => ⟨S4000000, .f32⟩
  | 117 => ⟨S_, .f32⟩
  | 118 => ⟨S4000000, .f32⟩
  | 119 => ⟨S4000000, .f32⟩
  | 120 => ⟨S_, .f32⟩
  | 121 => ⟨S4000000, .f32⟩
  | 122 => ⟨S4000000, .f32⟩
  | 123 => ⟨S4000000, .f32⟩
  | 124 => ⟨S4000000, .f32⟩
  | 125 => ⟨S4000000, .f32⟩
  | 126 => ⟨S4000000, .f32⟩
  | 127 => ⟨S_, .f32⟩
  | _ => ⟨S1000, .f32⟩

abbrev hbmTy0_1 (i : Nat) : BufTy := match i % 128 with
  | 0 => ⟨S4000000, .f32⟩
  | 1 => ⟨S4000000, .f32⟩
  | 2 => ⟨S_, .f32⟩
  | 3 => ⟨S4000000, .f32⟩
  | 4 => ⟨S4000000, .f32⟩
  | 5 => ⟨S4000000, .f32⟩
  | 6 => ⟨S4000000, .f32⟩
  | 7 => ⟨S4000000, .f32⟩
  | 8 => ⟨S4000000, .f32⟩
  | 9 => ⟨S_, .f32⟩
  | 10 => ⟨S4000000, .f32⟩
  | 11 => ⟨S4000000, .f32⟩
  | 12 => ⟨S4000000, .f32⟩
  | 13 => ⟨S4000000, .f32⟩
  | 14 => ⟨S_, .f32⟩
  | 15 => ⟨S4000000, .f32⟩
  | 16 => ⟨S4000000, .f32⟩
  | 17 => ⟨S_, .f32⟩
  | 18 => ⟨S_, .f32⟩
  | 19 => ⟨S_, .f32⟩
  | 20 => ⟨S_, .f32⟩
  | 21 => ⟨S_, .f32⟩
  | _ => ⟨S1000, .f32⟩

abbrev hbmTy (i : Nat) : BufTy := match i / 128 with
  | 0 => hbmTy0_0 i
  | 1 => hbmTy0_1 i
  | _ => ⟨S1000, .f32⟩

abbrev bufTy : (tb : Table) → Fin (tcTables nBuf tb) → BufTy
  | .hbm, ⟨i, _⟩ => hbmTy i
  | _, _ => ⟨S1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_c : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_c_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_12 : Ref sig .tc := ⟨.hbm, 80, rfl⟩
abbrev main_v50 : Ref sig .tc := ⟨.hbm, 81, rfl⟩
abbrev main_v51 : Ref sig .tc := ⟨.hbm, 82, rfl⟩
abbrev main_c_13 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_14 : Ref sig .tc := ⟨.hbm, 90, rfl⟩
abbrev main_v58 : Ref sig .tc := ⟨.hbm, 91, rfl⟩
abbrev main_v59 : Ref sig .tc := ⟨.hbm, 92, rfl⟩
abbrev main_c_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_16 : Ref sig .tc := ⟨.hbm, 99, rfl⟩
abbrev main_v65 : Ref sig .tc := ⟨.hbm, 100, rfl⟩
abbrev main_v66 : Ref sig .tc := ⟨.hbm, 101, rfl⟩
abbrev main_c_17 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call2_cst : Ref sig .tc := ⟨.hbm, 117, rfl⟩
abbrev main_call2_v0 : Ref sig .tc := ⟨.hbm, 118, rfl⟩
abbrev main_v80 : Ref sig .tc := ⟨.hbm, 119, rfl⟩
abbrev main_cst_19 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call3_cst : Ref sig .tc := ⟨.hbm, 127, rfl⟩
abbrev main_call3_v0 : Ref sig .tc := ⟨.hbm, 128, rfl⟩
abbrev main_v87 : Ref sig .tc := ⟨.hbm, 129, rfl⟩
abbrev main_cst_20 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_21 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_22 : Ref sig .tc := ⟨.hbm, 142, rfl⟩
abbrev main_v98 : Ref sig .tc := ⟨.hbm, 143, rfl⟩
abbrev main_v99 : Ref sig .tc := ⟨.hbm, 144, rfl⟩
abbrev main_cst_23 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  reducesTo_S1000_S_d0 : S1000.ReducesTo [0] S_
  h_S_ : 0 < S_.numel
  bcast_S_S20000 : S_.BroadcastsInDim S20000 (![] : Fin 0 → Fin S20000.rank)
  reducesTo_S20000_S_d0 : S20000.ReducesTo [0] S_
  bcast_S_S4000000 : S_.BroadcastsInDim S4000000 (![] : Fin 0 → Fin S4000000.rank)
  bcast_S4000000_S4000000x1_0 : S4000000.BroadcastsInDim S4000000x1 (![0] : Fin 1 → Fin S4000000x1.rank)
  reducesTo_S4000000_S_d0 : S4000000.ReducesTo [0] S_
  gather_S1000_S4000000x1_S4000000_n_0_n_n_0_1_1_wf : GatherDims.WF S1000 S4000000x1 S4000000 [] [0] [] [0] [] 1 ![1]
  gather_S20000_S4000000x1_S4000000_n_0_n_n_0_1_1_wf : GatherDims.WF S20000 S4000000x1 S4000000 [] [0] [] [0] [] 1 ![1]

variable [Facts₀]

def gather_S1000_S4000000x1_S4000000_n_0_n_n_0_1_1 : GatherDims S1000 S4000000x1 S4000000 where
  offsetDims := []
  collapsedSliceDims := [0]
  operandBatchingDims := []
  startIndicesBatchingDims := []
  startIndexMap := [0]
  indexVectorDim := 1
  sliceSizes := ![1]
  wf := gather_S1000_S4000000x1_S4000000_n_0_n_n_0_1_1_wf
def gather_S20000_S4000000x1_S4000000_n_0_n_n_0_1_1 : GatherDims S20000 S4000000x1 S4000000 where
  offsetDims := []
  collapsedSliceDims := [0]
  operandBatchingDims := []
  startIndicesBatchingDims := []
  startIndexMap := [0]
  indexVectorDim := 1
  sliceSizes := ![1]
  wf := gather_S20000_S4000000x1_S4000000_n_0_n_n_0_1_1_wf

class Facts : Prop extends Facts₀ where

variable [Facts]
-- ==== Proof.EdgeResult.lean ====
/-
  The end of the edge kernel's program, at any float instance. The output window's one block is the whole [1,128]
  array and is written back once, after the last grid point, so the array ends at the row the last point left.
  The host lines after the region then sum that row from zero, add the two small sums computed before the
  region, and negate: the program's result as one term over the row and the entry contents.
-/
import proofs.«104057_j88433376625452_1_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.EdgeResult

open Cert.KernelIdeal Cert.KernelIdeal.Gen

variable {F : FTy → Type} [FloatOps F]
variable (m : (ℓ : Loc nD τ sig) → Buf (Elt F) ℓ) (ρ : Dev nD → PrngReg)

/-- Point 15 is a point of the grid. -/
theorem h15 : 15 < cfg0.N := by rw [show cfg0.N = 16 from N_0]; decide

/-- The one write-back, at the last point, writes the row that point left: the block is the array. -/
theorem flushed_eq (c : Dev nD) (t : Fin cfg0.N) (hf : (cfg0.win 9).flush t = true) :
    (dats m 0 c).flushed 9 t = ((cfg0.win 9).blk t).view.read (Elt F) (outsAt0 m c 15 h15) := by
  have hN : cfg0.N = 16 := N_0
  have h3 : t.val = 15 := by have := (flush0_9 t).mp hf; have := t.isLt; omega
  obtain rfl : t = t0_15 := Fin.ext h3
  show (cfg0.win 9).cut (grid0.coords t0_15) ((dats m 0 c).after 9 t0_15) = _
  rw [after0_9]
  have hz' : (fun a => win0_9.index t0_15 a * main_v90.ty.shape.size a) = fun _ => 0 := funext fun a => by fin_cases a <;> decide
  exact (Memref.read_access_unit_zero (Elt F) main_v90 hz' (fun a => by rw [congrFun hz' a]; simp) (outsAt0 m c 15 h15)).symm

/-- So the result array of the region ends at that row (the last point's block covers it). -/
theorem final9 (c : Dev nD) : (dats m 0 c).arrAt 9 cfg0.N = outsAt0 m c 15 h15 :=
  (dats m 0 c).arrAt_eq_of_cover 9 (outsAt0 m c 15 h15) (flushed_eq m c) fun i =>
    ⟨t0_15, (flush0_9 t0_15).mpr rfl, by
      show i ∈ ((View.whole main_v90).slice (win0_9.rect t0_15)).set
      rw [View.set_slice_whole, Rect.mem_set_unit]
      intro a
      have h0 : (i 0 : Nat) < 1 := (i 0).isLt
      have h1 : (i 1 : Nat) < 128 := (i 1).isLt
      match a with
      | ⟨0, _⟩ => show win0_9.index t0_15 0 * win0_9.size 0 ≤ (i 0 : Nat) ∧ (i 0 : Nat) < win0_9.index t0_15 0 * win0_9.size 0 + win0_9.xsize (grid0.coords t0_15) 0
                  rw [show win0_9.index t0_15 0 * win0_9.size 0 = 0 from by decide +kernel, show win0_9.xsize (grid0.coords t0_15) 0 = 1 from by decide +kernel]; omega
      | ⟨1, _⟩ => show win0_9.index t0_15 1 * win0_9.size 1 ≤ (i 1 : Nat) ∧ (i 1 : Nat) < win0_9.index t0_15 1 * win0_9.size 1 + win0_9.xsize (grid0.coords t0_15) 1
                  rw [show win0_9.index t0_15 1 * win0_9.size 1 = 0 from by decide +kernel, show win0_9.xsize (grid0.coords t0_15) 1 = 128 from by decide +kernel]; omega⟩

/-- The program's result: the lines after the region, over the region's array and the entry contents. -/
theorem tail_eq (c : Dev nD) :
    Pipeline.afterTail₀ cfgs (dats m) 0 (V0 m) [hostOps1] c main_v94
      = Host.negf (addf (addf (V m c main_v9) (V m c main_v24))
          (Host.reduceAdd (outsAt0 m c 15 h15) (constant (F := F) S_ .f32 0x00000000#32) reducesTo_S1x128_S_d0_1 h_S_)) := by
  unfold Pipeline.afterTail₀
  show StableHlo.after hostOps1 _ (Proc.devRef .tc main_v94) = _
  after_results
  have e9 : Pipeline.withArrays (cfgs 0).spec c (V0 m c) (fun w => (dats m 0 c).arrAt w (cfgs 0).N) (Proc.devRef .tc main_v9)
      = V m c main_v9 :=
    Pipeline.withArrays_of_ne _ c (V0 m c) _ main_v9 (by exact (by decide : ∀ w, Pipeline.arrRef spec0 w ≠ main_v9))
  have e24 : Pipeline.withArrays (cfgs 0).spec c (V0 m c) (fun w => (dats m 0 c).arrAt w (cfgs 0).N) (Proc.devRef .tc main_v24)
      = V m c main_v24 :=
    Pipeline.withArrays_of_ne _ c (V0 m c) _ main_v24 (by exact (by decide : ∀ w, Pipeline.arrRef spec0 w ≠ main_v24))
  have e90 : Pipeline.withArrays (cfgs 0).spec c (V0 m c) (fun w => (dats m 0 c).arrAt w (cfgs 0).N) (Proc.devRef .tc main_v90)
      = outsAt0 m c 15 h15 :=
    (Pipeline.withArrays_arr spec0 launch0.win.arr_inj c _ _ 9).trans (final9 m c)
  rw [e9, e24, e90]

/-- THE RUN, READ: every weakly fair execution ends with the result at that term and the arguments as launched. -/
theorem run : θ_run defs (onTc (τ := τ) (main (F := F))) ⟨m, fun _ => 0, ρ⟩ (fun r => ∀ c : Dev nD,
      r.2.mem ((c.tc : Thread nD τ).loc main_v94)
        = Host.negf (addf (addf (V m c main_v9) (V m c main_v24))
            (Host.reduceAdd (outsAt0 m c 15 h15) (constant (F := F) S_ .f32 0x00000000#32) reducesTo_S1x128_S_d0_1 h_S_))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨((h c).2 main_v94 (Pipeline.mem_restRefs_of main_v94 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c)⟩)
    (run_main m ρ)

end Cert.KernelIdeal.EdgeResult

end
-- ==== Proof.EdgeSpec.lean ====
/-
  The per-edge conditional-Gaussian log-density as one function of nine extended reals, and the law that
  re-indexes its sum: the 4,000,000 edges laid out as 32,000 rows of 128 lanes (the tail of the last rows
  contributing zero), the rows cut into 16 blocks of 2,000, summed lane by lane, block by block, row by row,
  give the plain sum over the edges. The law uses only that addition on the extended reals is commutative and
  associative, so it holds at the infinities too.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.EdgeSpec

open Idealize.ShloMosaic

/-- The log-density of one edge: with `v = 1 / tfSig²`, `loc = max (tgMu + k·cov·(ey − tfMu)·v) 0 + 0.01` and
    `scale = sqrt (max (tgSig² − al²·v) 0 + 0.01)`, it is `−½·((ex − loc)/scale)² − log scale − ½·log 2π`, every
    constant the f32 word both programs print. -/
def edgeLogp (tfMu tfSig tgMu tgSig k al cov ey ex : EReal) : EReal :=
  Ideal.ofBits .f32 0xBF000000#32
      * (Ideal.div (ex - (max (tgMu + k * cov * (ey - tfMu) * Ideal.div (Ideal.ofBits .f32 0x3F800000#32) (tfSig * tfSig))
            (Ideal.ofBits .f32 0x00000000#32) + Ideal.ofBits .f32 0x3C23D70A#32))
          (Ideal.sqrt (max (tgSig * tgSig - al * al * Ideal.div (Ideal.ofBits .f32 0x3F800000#32) (tfSig * tfSig))
            (Ideal.ofBits .f32 0x00000000#32) + Ideal.ofBits .f32 0x3C23D70A#32))
        * Ideal.div (ex - (max (tgMu + k * cov * (ey - tfMu) * Ideal.div (Ideal.ofBits .f32 0x3F800000#32) (tfSig * tfSig))
            (Ideal.ofBits .f32 0x00000000#32) + Ideal.ofBits .f32 0x3C23D70A#32))
          (Ideal.sqrt (max (tgSig * tgSig - al * al * Ideal.div (Ideal.ofBits .f32 0x3F800000#32) (tfSig * tfSig))
            (Ideal.ofBits .f32 0x00000000#32) + Ideal.ofBits .f32 0x3C23D70A#32)))
    - Ideal.log (Ideal.sqrt (max (tgSig * tgSig - al * al * Ideal.div (Ideal.ofBits .f32 0x3F800000#32) (tfSig * tfSig))
            (Ideal.ofBits .f32 0x00000000#32) + Ideal.ofBits .f32 0x3C23D70A#32))
    - Ideal.ofBits .f32 0x3F6B3F8E#32

/-- A sum over `a·b` consecutive positions is the sum over `a` rows of the sum over the `b` positions of a row. -/
theorem sum_rect {M : Type*} [AddCommMonoid M] (n a b : ℕ) (h : n = a * b) (f : ℕ → M) :
    ∑ e : Fin n, f e.val = ∑ i : Fin a, ∑ j : Fin b, f (j.val + b * i.val) := by
  subst h
  rw [← Equiv.sum_comp finProdFinEquiv, Fintype.sum_prod_type]
  rfl

/-- THE RE-INDEXING. A function of the position that vanishes from position 4,000,000 on, summed over the 128 lanes,
    the 16 blocks and the 2,000 rows of a block at position `(2000·t + r)·128 + l`, is its sum over the first
    4,000,000 positions. -/
theorem sum_blocks {M : Type*} [AddCommMonoid M] (g : ℕ → M) (hz : ∀ e, 4000000 ≤ e → g e = 0) :
    ∑ l : Fin 128, ∑ t ∈ Finset.range 16, ∑ r : Fin 2000, g ((t * 2000 + r.val) * 128 + l.val)
      = ∑ e : Fin 4000000, g e.val := by
  have h1 : ∑ e : Fin 4000000, g e.val = ∑ e : Fin 4096000, g e.val := by
    rw [Fin.sum_univ_eq_sum_range (fun e => g e) 4000000, Fin.sum_univ_eq_sum_range (fun e => g e) 4096000]
    exact Finset.sum_subset (Finset.range_mono (by norm_num))
      (fun x _ hx => hz x (by simpa using hx))
  have h2 : ∀ k : ℕ → M, ∑ i : Fin 32000, k i.val = ∑ t ∈ Finset.range 16, ∑ r : Fin 2000, k (r.val + 2000 * t) := by
    intro k
    rw [← Fin.sum_univ_eq_sum_range (fun t => ∑ r : Fin 2000, k (r.val + 2000 * t)) 16]
    exact sum_rect 32000 16 2000 (by norm_num) k
  have h3 : ∑ e : Fin 4096000, g e.val = ∑ i : Fin 32000, ∑ j : Fin 128, g (j.val + 128 * i.val) :=
    sum_rect 4096000 32000 128 (by norm_num) g
  rw [h1, h3]
  rw [h2 (fun i => ∑ j : Fin 128, g (j.val + 128 * i))]
  rw [Finset.sum_comm]
  refine Finset.sum_congr rfl fun t _ => ?_
  rw [Finset.sum_comm]
  refine Finset.sum_congr rfl fun r _ => Finset.sum_congr rfl fun l _ => ?_
  exact congrArg g (by ring)

/-- The plain sum of the log-density over the 4,000,000 edges of nine arrays. -/
def edgeSum (X0 X1 X2 X3 X4 X5 X6 X7 X8 : Fin 4000000 → EReal) : EReal :=
  ∑ e : Fin 4000000, edgeLogp (X0 e) (X1 e) (X2 e) (X3 e) (X4 e) (X5 e) (X6 e) (X7 e) (X8 e)

/-- The log-density at a position, and zero from position 4,000,000 on. -/
def edgeAt (X0 X1 X2 X3 X4 X5 X6 X7 X8 : Fin 4000000 → EReal) (e : ℕ) : EReal :=
  if h : e < 4000000 then
    edgeLogp (X0 ⟨e, h⟩) (X1 ⟨e, h⟩) (X2 ⟨e, h⟩) (X3 ⟨e, h⟩) (X4 ⟨e, h⟩) (X5 ⟨e, h⟩) (X6 ⟨e, h⟩) (X7 ⟨e, h⟩) (X8 ⟨e, h⟩)
  else 0

/-- Lane by lane, block by block, row by row, the positions' log-densities sum to `edgeSum`. -/
theorem sum_blocks_edge (X0 X1 X2 X3 X4 X5 X6 X7 X8 : Fin 4000000 → EReal) :
    ∑ l : Fin 128, ∑ t ∈ Finset.range 16, ∑ r : Fin 2000,
        edgeAt X0 X1 X2 X3 X4 X5 X6 X7 X8 ((t * 2000 + r.val) * 128 + l.val)
      = edgeSum X0 X1 X2 X3 X4 X5 X6 X7 X8 := by
  rw [sum_blocks (edgeAt X0 X1 X2 X3 X4 X5 X6 X7 X8) (fun e he => dif_neg (by omega))]
  exact Finset.sum_congr rfl fun e _ => dif_pos e.isLt

/-- The indices of a vector are its positions. -/
def idxEquiv1 {n : ℕ} : (⟨1, ![n]⟩ : Shape).Idx ≃ Fin n where
  toFun j := j 0
  invFun e := ValueIdx.ix1 e
  left_inv j := (ValueIdx.eq_ix1 j).symm
  right_inv _ := rfl

/-- A sum over a vector's indices is the sum over its positions. -/
theorem sum_idx1 {M : Type*} [AddCommMonoid M] {n : ℕ} (f : (⟨1, ![n]⟩ : Shape).Idx → M) :
    ∑ j, f j = ∑ e : Fin n, f (ValueIdx.ix1 e) :=
  (Equiv.sum_comp idxEquiv1.symm f).symm

/-- A sum over the indices of a one-row matrix is the sum over its lanes. -/
theorem sum_idx_row {M : Type*} [AddCommMonoid M] {n : ℕ} (f : (⟨2, ![1, n]⟩ : Shape).Idx → M) :
    ∑ j, f j = ∑ l : Fin n, f (ValueIdx.ix2 0 l) := by
  rw [ValueIdx.sum_idx2, Fin.sum_univ_one]

end Cert.EdgeSpec

end
-- ==== Proof.EdgePieces.lean ====
/-
  What one grid point of the edge kernel leaves in the one-row output block, as a value. The body's only stores
  go to that block: at the first point a row of zeros, then (at every point) the row it holds plus the block's
  lane sums. Reading the covering stores back, the block ends at the body's one payload applied to the nine
  input blocks and to the row the point started from — the zero row at the first point, the previous point's row
  afterwards.
-/
import proofs.«104057_j88433376625452_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.EdgePieces

open Cert.KernelIdeal Cert.KernelIdeal.Gen

variable {F : FTy → Type} [FloatOps F]

/-- The block's offset in its buffer is zero on both axes. -/
theorem hz : (![0, 0] : Fin 2 → Nat) = fun _ => 0 := funext fun a => by fin_cases a <;> rfl

/-- A point that is not the first: the payload over the row `xo` found in the block. -/
theorem out_B (c : Dev nD) (i : grid0.Coords)
    (a1 : Memref sig .tc .vmem S2000x128 .f32) (h1 : a1.IsWhole) (a2 : Memref sig .tc .vmem S2000x128 .f32) (h2 : a2.IsWhole)
    (a3 : Memref sig .tc .vmem S2000x128 .f32) (h3 : a3.IsWhole) (a4 : Memref sig .tc .vmem S2000x128 .f32) (h4 : a4.IsWhole)
    (a5 : Memref sig .tc .vmem S2000x128 .f32) (h5 : a5.IsWhole) (a6 : Memref sig .tc .vmem S2000x128 .f32) (h6 : a6.IsWhole)
    (a7 : Memref sig .tc .vmem S2000x128 .f32) (h7 : a7.IsWhole) (a8 : Memref sig .tc .vmem S2000x128 .f32) (h8 : a8.IsWhole)
    (a9 : Memref sig .tc .vmem S2000x128 .f32) (h9 : a9.IsWhole) (a10 : Memref sig .tc .vmem S1x128 .f32) (h10 : a10.IsWhole)
    (hc : ¬cond0_0 i) (x0 x1 x2 x3 x4 x5 x6 x7 x8 : Vec F S2000x128 .f32) (xo : Vec F S1x128 .f32) :
    out0_B_9 c i a1 h1 a2 h2 a3 h3 a4 h4 a5 h5 a6 h6 a7 h7 a8 h8 a9 h9 a10 h10 hc x0 x1 x2 x3 x4 x5 x6 x7 x8 xo
      = k0_pay1 (BitVec.ofNat 32 (i 0).val) (k0_pay3 x8) (k0_pay4 x1) (k0_pay5 x0 x1 x2 x4 x6 x7) (k0_pay6 x3) (k0_pay7 x5) xo := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 x6 x7 x8 xo)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, View.ld_unit_zero (S := S2000x128) hz,
    View.ld_unit_zero (S := S1x128) hz]

/-- The first point: the payload over the zero row just stored. -/
theorem out_A (c : Dev nD) (i : grid0.Coords)
    (a1 : Memref sig .tc .vmem S2000x128 .f32) (h1 : a1.IsWhole) (a2 : Memref sig .tc .vmem S2000x128 .f32) (h2 : a2.IsWhole)
    (a3 : Memref sig .tc .vmem S2000x128 .f32) (h3 : a3.IsWhole) (a4 : Memref sig .tc .vmem S2000x128 .f32) (h4 : a4.IsWhole)
    (a5 : Memref sig .tc .vmem S2000x128 .f32) (h5 : a5.IsWhole) (a6 : Memref sig .tc .vmem S2000x128 .f32) (h6 : a6.IsWhole)
    (a7 : Memref sig .tc .vmem S2000x128 .f32) (h7 : a7.IsWhole) (a8 : Memref sig .tc .vmem S2000x128 .f32) (h8 : a8.IsWhole)
    (a9 : Memref sig .tc .vmem S2000x128 .f32) (h9 : a9.IsWhole) (a10 : Memref sig .tc .vmem S1x128 .f32) (h10 : a10.IsWhole)
    (hc : cond0_0 i) (x0 x1 x2 x3 x4 x5 x6 x7 x8 : Vec F S2000x128 .f32) :
    out0_A_9 c i a1 h1 a2 h2 a3 h3 a4 h4 a5 h5 a6 h6 a7 h7 a8 h8 a9 h9 a10 h10 hc x0 x1 x2 x3 x4 x5 x6 x7 x8
      = k0_pay1 (BitVec.ofNat 32 (i 0).val) (k0_pay3 x8) (k0_pay4 x1) (k0_pay5 x0 x1 x2 x4 x6 x7) (k0_pay6 x3) (k0_pay7 x5) (k0_pay2 (F := F)) := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5 x6 x7 x8)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    h7.read_unread, h8.read_unread, h9.read_unread, View.ld_unit_zero (S := S2000x128) hz,
    View.ld_unit_zero (S := S1x128) hz]

end Cert.KernelIdeal.EdgePieces

end
-- ==== Proof.EdgeMask.lean ====
/-
  The validity mask of the edge kernel, as words and as extended reals. At block `t`, row `r`, lane `l` the body
  computes the flat position `(2000·t + r)·128 + l` in 32-bit words and compares it, signed, with 4,000,000; every
  such position is below 4,096,000 < 2³¹, so no product or sum wraps and the signed comparison is the comparison of
  the numbers. Widened to a word and converted to a float the condition is the real number 1 or 0.
-/
import Idealize.ShloMosaic.PureOps.Ideal
import Idealize.ShloMosaic.Lib.Affine
import Idealize.ShloMosaic.Lib.KernelVsHost

namespace Cert.EdgeMask

open Idealize.ShloMosaic

/-- The position word does not wrap. -/
theorem pos_word (t r l : ℕ) (ht : t < 16) (hr : r < 2000) (hl : l < 128) :
    IntOp.addi (IntOp.muli (IntOp.addi (Scalar.muli (BitVec.ofNat 32 t) 2000#32) (BitVec.ofNat 32 r)) 128#32) (BitVec.ofNat 32 l)
      = BitVec.ofNat 32 ((t * 2000 + r) * 128 + l) := by
  apply BitVec.eq_of_toNat_eq
  simp only [IntOp.addi, IntOp.muli, Scalar.muli, BitVec.toNat_add, BitVec.toNat_mul, BitVec.toNat_ofNat]
  omega

/-- The comparison word is 1 exactly on the positions below 4,000,000. -/
theorem mask_word (t r l : ℕ) (ht : t < 16) (hr : r < 2000) (hl : l < 128) :
    IntOp.cmpi .slt (IntOp.addi (IntOp.muli (IntOp.addi (Scalar.muli (BitVec.ofNat 32 t) 2000#32) (BitVec.ofNat 32 r)) 128#32)
        (BitVec.ofNat 32 l)) 4000000#32
      = if (t * 2000 + r) * 128 + l < 4000000 then 1#1 else 0#1 := by
  rw [pos_word t r l ht hr hl]
  have hlt : (t * 2000 + r) * 128 + l < 4096000 := by omega
  have hi : (BitVec.ofNat 32 ((t * 2000 + r) * 128 + l)).toInt = (((t * 2000 + r) * 128 + l : ℕ) : ℤ) := by
    rw [BitVec.toInt_eq_toNat_cond, BitVec.toNat_ofNat]
    have : ((t * 2000 + r) * 128 + l) % 2 ^ 32 = (t * 2000 + r) * 128 + l := Nat.mod_eq_of_lt (by omega)
    rw [this, if_pos (by omega)]
  have hc : (4000000#32 : BitVec 32).toInt = 4000000 := by decide
  by_cases h : (t * 2000 + r) * 128 + l < 4000000
  · rw [if_pos h]
    exact IntOp.cmpi_slt.mpr (by rw [hi, hc]; exact_mod_cast h)
  · rw [if_neg h]
    refine ValueIdx.eq_zero_of_ne_one fun hone => h ?_
    have := IntOp.cmpi_slt.mp hone
    rw [hi, hc] at this
    exact_mod_cast this

/-- A condition widened to a word and converted, read at the ideal values: 1 or 0. -/
theorem mask_real (c : Prop) [Decidable c] :
    (Scalar.sitofp (F := Ideal) .f32 ((if c then (1#1 : BitVec 1) else 0#1).setWidth 32) : EReal) = if c then 1 else 0 := by
  show (((((if c then (1#1 : BitVec 1) else 0#1).setWidth 32).toInt : ℤ) : ℝ) : EReal) = _
  rw [toInt_setWidth_bit]
  split_ifs <;> simp

end Cert.EdgeMask
-- ==== Proof.EdgePayload.lean ====
/-
  The edge kernel's one payload, read at the ideal values, lane by lane. Over nine [2000,128] blocks and a
  [1,128] row `acc`, at block `t` of the grid, lane `l` of the result is `acc` there plus the sum over the
  block's 2,000 rows of the edge's log-density times the validity mask of the position `(2000·t + r)·128 + l`:
  the mask is 1 below 4,000,000 and 0 from there on.
-/
import proofs.«104057_j88433376625452_1_alg».proof.Proof.Gen.KernelIdeal.Skeleton
import proofs.«104057_j88433376625452_1_alg».proof.Proof.EdgeSpec
import proofs.«104057_j88433376625452_1_alg».proof.Proof.EdgeMask
import Idealize.ShloMosaic.Lib.ValueIdx
import Idealize.ShloMosaic.Lib.Pipeline.Value
import Idealize.ShloMosaic.PureOps.Ideal.Laws

noncomputable section

namespace Cert.KernelIdeal.EdgePayload

open Cert.KernelIdeal Cert.KernelIdeal.Gen Cert.EdgeSpec Cert.EdgeMask
open Idealize.ShloMosaic Idealize.ShloMosaic.ValueIdx

/-- The sum down the rows of a [2000,128] block, at lane `l`. -/
theorem laneSum_apply (src : FVec Ideal S2000x128 .f32) (l : Fin 128) :
    multiReduction .add [0] S128 src 0x00000000#32 reduces_S2000x128_S128 (.inl rfl) rfl (ix1 l)
      = ∑ r : Fin 2000, src (ix2 r l) := by
  refine (Ideal.multiReduction_add_single src 0x00000000#32 reduces_S2000x128_S128 (.inl rfl) rfl (ix1 l)).trans ?_
  show ∑ r : Fin 2000, src (reduces_S2000x128_S128.lift (ix1 l) r) = _
  refine Finset.sum_congr rfl fun r _ => congrArg src ?_
  funext a
  apply Fin.ext
  match a with
  | ⟨0, _⟩ => rfl
  | ⟨1, _⟩ => rfl

/-- The row of lane sums viewed as a one-row matrix, at lane `l`. -/
theorem rowCast_apply (v : FVec Ideal S128 .f32) (l : Fin 128) :
    shapeCast S1x128 v shapeCasts_S128_S1x128 (ix2 0 l) = v (ix1 l) := by
  refine shapeCast_apply v shapeCasts_S128_S1x128 (ix2 0 l) (ix1 l) ?_
  rw [Shape.rowMajor_val_one, Shape.rowMajor_val_two]
  show l.val = 0 * 128 + l.val
  omega

/-- The five carried values are pointwise expressions of the loaded blocks. -/
theorem pay3_eq (x8 : FVec Ideal S2000x128 .f32) : k0_pay3 (F := Ideal) x8 = x8 := by
  unfold k0_pay3; exact shapeCast_self _ _
theorem pay4_eq (x1 : FVec Ideal S2000x128 .f32) :
    k0_pay4 (F := Ideal) x1 = divf (broadcast S2000x128 (Scalar.ofBits .f32 0x3F800000#32)) (mulf x1 x1) := by
  unfold k0_pay4; simp only [shapeCast_self]
theorem pay6_eq (x3 : FVec Ideal S2000x128 .f32) : k0_pay6 (F := Ideal) x3 = mulf x3 x3 := by
  unfold k0_pay6; simp only [shapeCast_self]
theorem pay7_eq (x5 : FVec Ideal S2000x128 .f32) : k0_pay7 (F := Ideal) x5 = mulf x5 x5 := by
  unfold k0_pay7; simp only [shapeCast_self]
theorem pay5_eq (x0 x1 x2 x4 x6 x7 : FVec Ideal S2000x128 .f32) :
    k0_pay5 (F := Ideal) x0 x1 x2 x4 x6 x7
      = addf (maximumf (addf x2 (mulf (mulf (mulf x4 x6) (subf x7 x0))
            (divf (broadcast S2000x128 (Scalar.ofBits .f32 0x3F800000#32)) (mulf x1 x1))))
          (broadcast S2000x128 (Scalar.ofBits .f32 0x00000000#32)))
        (broadcast S2000x128 (Scalar.ofBits .f32 0x3C23D70A#32)) := by
  unfold k0_pay5; simp only [shapeCast_self, pay4_eq]

/-- THE PAYLOAD AT A LANE. -/
theorem pay1_apply (t : ℕ) (ht : t < 16) (x0 x1 x2 x3 x4 x5 x6 x7 x8 : FVec Ideal S2000x128 .f32)
    (acc : FVec Ideal S1x128 .f32) (l : Fin 128) :
    k0_pay1 (F := Ideal) (BitVec.ofNat 32 t) (k0_pay3 x8) (k0_pay4 x1) (k0_pay5 x0 x1 x2 x4 x6 x7) (k0_pay6 x3) (k0_pay7 x5)
        acc (ix2 0 l)
      = acc (ix2 0 l) + ∑ r : Fin 2000,
          edgeLogp (x0 (ix2 r l)) (x1 (ix2 r l)) (x2 (ix2 r l)) (x3 (ix2 r l)) (x4 (ix2 r l)) (x5 (ix2 r l))
              (x6 (ix2 r l)) (x7 (ix2 r l)) (x8 (ix2 r l))
            * (if (t * 2000 + r.val) * 128 + l.val < 4000000 then 1 else 0) := by
  rw [pay3_eq, pay4_eq, pay5_eq, pay6_eq, pay7_eq]
  unfold k0_pay1
  dsimp only
  refine (addf_apply _ _ _).trans ?_
  refine congrArg₂ (· + ·) (congrFun (shapeCast_self acc _) _) ?_
  refine (rowCast_apply _ l).trans ?_
  refine (laneSum_apply _ l).trans ?_
  refine Finset.sum_congr rfl fun r _ => ?_
  refine (mulf_apply _ _ _).trans ?_
  refine congrArg₂ (· * ·) rfl ?_
  have e0 : iota .tc S2000x128 32 [0] iota_S2000x128_d0_w32 (ix2 r l) = BitVec.ofNat 32 r.val :=
    iota_single_apply .tc S2000x128 32 0 _ (ix2 r l)
  have e1 : iota .tc S2000x128 32 [1] iota_S2000x128_d1_w32 (ix2 r l) = BitVec.ofNat 32 l.val :=
    iota_single_apply .tc S2000x128 32 1 _ (ix2 r l)
  show Scalar.sitofp (F := Ideal) .f32 ((IntOp.cmpi .slt (IntOp.addi (IntOp.muli (IntOp.addi (Scalar.muli (BitVec.ofNat 32 t) 2000#32)
    (iota .tc S2000x128 32 [0] iota_S2000x128_d0_w32 (ix2 r l))) 128#32) (iota .tc S2000x128 32 [1] iota_S2000x128_d1_w32 (ix2 r l)))
    4000000#32).setWidth 32) = _
  rw [e0, e1, mask_word t r.val l.val ht r.isLt l.isLt]
  exact mask_real _

end Cert.KernelIdeal.EdgePayload

end
-- ==== Proof.EdgeBlocks.lean ====
/-
  The nine input windows of the edge kernel read at an element. Each array is [32000,128] and is cut along the
  rows into 16 blocks of [2000,128]: window `w`'s block at grid point `t` starts at row `2000·t`, lane 0, so its
  element `(r, l)` is the array's element `(2000·t + r, l)`. And a [32000,128] array that is the row-major view of a
  4,000,000-vector padded on the right to 4,096,000 holds, at `(row, l)` with `128·row + l < 4,000,000`, the
  vector's entry `128·row + l`.
-/
import proofs.«104057_j88433376625452_1_alg».proof.Proof.Gen.KernelIdeal.Frame.Runs
import Idealize.ShloMosaic.Lib.Pipeline.Value
import Idealize.ShloMosaic.Lib.ValueIdx
import Idealize.ShloMosaic.Lib.KernelVsHost

noncomputable section

open Idealize.ShloMosaic Idealize.ShloMosaic.TcCoe Idealize.SL.Sem Idealize.ShloMosaic.ValueIdx

namespace Cert.KernelIdeal.EdgeBlocks

open Cert.KernelIdeal Cert.KernelIdeal.Gen

/-- The padded vector viewed as rows of lanes, read inside the vector. -/
theorem padded_apply {α : Type} (x : S4000000.Idx → α) (v : S_.Idx → α) (row : Fin 32000) (l : Fin 128)
    (h : row.val * 128 + l.val < 4000000) :
    shapeCast S32000x128 (pad S4096000 ![0] ![96000] ![0] x v pads_S4000000_S4096000_0960000 h_S_)
        shapeCasts_S4096000_S32000x128 (ix2 row l)
      = x (ix1 ⟨row.val * 128 + l.val, h⟩) := by
  have h' : row.val * 128 + l.val < 4096000 := by omega
  refine (shapeCast_apply _ shapeCasts_S4096000_S32000x128 (ix2 row l) (ix1 ⟨row.val * 128 + l.val, h'⟩) ?_).trans ?_
  · rw [Shape.rowMajor_val_one, Shape.rowMajor_val_two]
    rfl
  · refine pad_apply_of_inside ![0] ![96000] ![0] x v pads_S4000000_S4096000_0960000 h_S_ _ (ix1 ⟨row.val * 128 + l.val, h⟩) ?_
    intro a
    match a with
    | ⟨0, _⟩ => show row.val * 128 + l.val = 0 + (row.val * 128 + l.val) * (0 + 1); omega

/-- Every window's block index at point `t` is `(t, 0)`. -/
theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) :=
  (by decide +kernel : ∀ t : Fin grid0.N, _)

/-- The grid's one coordinate at point `t` is `t`. -/
theorem coord_facts : ∀ t : Fin cfg0.N, (grid0.coords t 0).val = t.val :=
  (by decide +kernel : ∀ t : Fin grid0.N, _)

variable {F : FTy → Type} [FloatOps F]
variable (m : (ℓ : Loc nD τ sig) → Buf (Elt F) ℓ)

/-- Window 0's block at point `t`, at row `r` and lane `l`. -/
theorem iblk0 (c : Dev nD) (t : Fin cfg0.N) (r : Fin 2000) (l : Fin 128) (hrow : t.val * 2000 + r.val < 32000) :
    (iblk m c 0 t : Vec F S2000x128 .f32) (ix2 r l) = V m c main_v73 (ix2 ⟨t.val * 2000 + r.val, hrow⟩ l) := by
  unfold iblk
  rw [View.read_apply]
  show V m c main_v73 (((cfg0.win 0).blk t).view.emb (ix2 r l)) = _
  refine congrArg (V m c main_v73) ?_
  funext a
  apply Fin.ext
  match a with
  | ⟨0, _⟩ => show win0_0.index t 0 * 2000 + 1 * r.val = t.val * 2000 + r.val; rw [(idx_facts t).1.1]; omega
  | ⟨1, _⟩ => show win0_0.index t 1 * 128 + 1 * l.val = l.val; rw [(idx_facts t).1.2]; omega

/-- Window 1's block at point `t`, at row `r` and lane `l`. -/
theorem iblk1 (c : Dev nD) (t : Fin cfg0.N) (r : Fin 2000) (l : Fin 128) (hrow : t.val * 2000 + r.val < 32000) :
    (iblk m c 1 t : Vec F S2000x128 .f32) (ix2 r l) = V m c main_v75 (ix2 ⟨t.val * 2000 + r.val, hrow⟩ l) := by
  unfold iblk
  rw [View.read_apply]
  show V m c main_v75 (((cfg0.win 1).blk t).view.emb (ix2 r l)) = _
  refine congrArg (V m c main_v75) ?_
  funext a
  apply Fin.ext
  match a with
  | ⟨0, _⟩ => show win0_1.index t 0 * 2000 + 1 * r.val = t.val * 2000 + r.val; rw [(idx_facts t).2.1.1]; omega
  | ⟨1, _⟩ => show win0_1.index t 1 * 128 + 1 * l.val = l.val; rw [(idx_facts t).2.1.2]; omega

/-- Window 2's block at point `t`, at row `r` and lane `l`. -/
theorem iblk2 (c : Dev nD) (t : Fin cfg0.N) (r : Fin 2000) (l : Fin 128) (hrow : t.val * 2000 + r.val < 32000) :
    (iblk m c 2 t : Vec F S2000x128 .f32) (ix2 r l) = V m c main_v77 (ix2 ⟨t.val * 2000 + r.val, hrow⟩ l) := by
  unfold iblk
  rw [View.read_apply]
  show V m c main_v77 (((cfg0.win 2).blk t).view.emb (ix2 r l)) = _
  refine congrArg (V m c main_v77) ?_
  funext a
  apply Fin.ext
  match a with
  | ⟨0, _⟩ => show win0_2.index t 0 * 2000 + 1 * r.val = t.val * 2000 + r.val; rw [(idx_facts t).2.2.1.1]; omega
  | ⟨1, _⟩ => show win0_2.index t 1 * 128 + 1 * l.val = l.val; rw [(idx_facts t).2.2.1.2]; omega

/-- Window 3's block at point `t`, at row `r` and lane `l`. -/
theorem iblk3 (c : Dev nD) (t : Fin cfg0.N) (r : Fin 2000) (l : Fin 128) (hrow : t.val * 2000 + r.val < 32000) :
    (iblk m c 3 t : Vec F S2000x128 .f32) (ix2 r l) = V m c main_v79 (ix2 ⟨t.val * 2000 + r.val, hrow⟩ l) := by
  unfold iblk
  rw [View.read_apply]
  show V m c main_v79 (((cfg0.win 3).blk t).view.emb (ix2 r l)) = _
  refine congrArg (V m c main_v79) ?_
  funext a
  apply Fin.ext
  match a with
  | ⟨0, _⟩ => show win0_3.index t 0 * 2000 + 1 * r.val = t.val * 2000 + r.val; rw [(idx_facts t).2.2.2.1.1]; omega
  | ⟨1, _⟩ => show win0_3.index t 1 * 128 + 1 * l.val = l.val; rw [(idx_facts t).2.2.2.1.2]; omega

/-- Window 4's block at point `t`, at row `r` and lane `l`. -/
theorem iblk4 (c : Dev nD) (t : Fin cfg0.N) (r : Fin 2000) (l : Fin 128) (hrow : t.val * 2000 + r.val < 32000) :
    (iblk m c 4 t : Vec F S2000x128 .f32) (ix2 r l) = V m c main_v81 (ix2 ⟨t.val * 2000 + r.val, hrow⟩ l) := by
  unfold iblk
  rw [View.read_apply]
  show V m c main_v81 (((cfg0.win 4).blk t).view.emb (ix2 r l)) = _
  refine congrArg (V m c main_v81) ?_
  funext a
  apply Fin.ext
  match a with
  | ⟨0, _⟩ => show win0_4.index t 0 * 2000 + 1 * r.val = t.val * 2000 + r.val; rw [(idx_facts t).2.2.2.2.1.1]; omega
  | ⟨1, _⟩ => show win0_4.index t 1 * 128 + 1 * l.val = l.val; rw [(idx_facts t).2.2.2.2.1.2]; omega

/-- Window 5's block at point `t`, at row `r` and lane `l`. -/
theorem iblk5 (c : Dev nD) (t : Fin cfg0.N) (r : Fin 2000) (l : Fin 128) (hrow : t.val * 2000 + r.val < 32000) :
    (iblk m c 5 t : Vec F S2000x128 .f32) (ix2 r l) = V m c main_v83 (ix2 ⟨t.val * 2000 + r.val, hrow⟩ l) := by
  unfold iblk
  rw [View.read_apply]
  show V m c main_v83 (((cfg0.win 5).blk t).view.emb (ix2 r l)) = _
  refine congrArg (V m c main_v83) ?_
  funext a
  apply Fin.ext
  match a with
  | ⟨0, _⟩ => show win0_5.index t 0 * 2000 + 1 * r.val = t.val * 2000 + r.val; rw [(idx_facts t).2.2.2.2.2.1.1]; omega
  | ⟨1, _⟩ => show win0_5.index t 1 * 128 + 1 * l.val = l.val; rw [(idx_facts t).2.2.2.2.2.1.2]; omega

/-- Window 6's block at point `t`, at row `r` and lane `l`. -/
theorem iblk6 (c : Dev nD) (t : Fin cfg0.N) (r : Fin 2000) (l : Fin 128) (hrow : t.val * 2000 + r.val < 32000) :
    (iblk m c 6 t : Vec F S2000x128 .f32) (ix2 r l) = V m c main_v85 (ix2 ⟨t.val * 2000 + r.val, hrow⟩ l) := by
  unfold iblk
  rw [View.read_apply]
  show V m c main_v85 (((cfg0.win 6).blk t).view.emb (ix2 r l)) = _
  refine congrArg (V m c main_v85) ?_
  funext a
  apply Fin.ext
  match a with
  | ⟨0, _⟩ => show win0_6.index t 0 * 2000 + 1 * r.val = t.val * 2000 + r.val; rw [(idx_facts t).2.2.2.2.2.2.1.1]; omega
  | ⟨1, _⟩ => show win0_6.index t 1 * 128 + 1 * l.val = l.val; rw [(idx_facts t).2.2.2.2.2.2.1.2]; omega

/-- Window 7's block at point `t`, at row `r` and lane `l`. -/
theorem iblk7 (c : Dev nD) (t : Fin cfg0.N) (r : Fin 2000) (l : Fin 128) (hrow : t.val * 2000 + r.val < 32000) :
    (iblk m c 7 t : Vec F S2000x128 .f32) (ix2 r l) = V m c main_v87 (ix2 ⟨t.val * 2000 + r.val, hrow⟩ l) := by
  unfold iblk
  rw [View.read_apply]
  show V m c main_v87 (((cfg0.win 7).blk t).view.emb (ix2 r l)) = _
  refine congrArg (V m c main_v87) ?_
  funext a
  apply Fin.ext
  match a with
  | ⟨0, _⟩ => show win0_7.index t 0 * 2000 + 1 * r.val = t.val * 2000 + r.val; rw [(idx_facts t).2.2.2.2.2.2.2.1.1]; omega
  | ⟨1, _⟩ => show win0_7.index t 1 * 128 + 1 * l.val = l.val; rw [(idx_facts t).2.2.2.2.2.2.2.1.2]; omega

/-- Window 8's block at point `t`, at row `r` and lane `l`. -/
theorem iblk8 (c : Dev nD) (t : Fin cfg0.N) (r : Fin 2000) (l : Fin 128) (hrow : t.val * 2000 + r.val < 32000) :
    (iblk m c 8 t : Vec F S2000x128 .f32) (ix2 r l) = V m c main_v89 (ix2 ⟨t.val * 2000 + r.val, hrow⟩ l) := by
  unfold iblk
  rw [View.read_apply]
  show V m c main_v89 (((cfg0.win 8).blk t).view.emb (ix2 r l)) = _
  refine congrArg (V m c main_v89) ?_
  funext a
  apply Fin.ext
  match a with
  | ⟨0, _⟩ => show win0_8.index t 0 * 2000 + 1 * r.val = t.val * 2000 + r.val; rw [(idx_facts t).2.2.2.2.2.2.2.2.1]; omega
  | ⟨1, _⟩ => show win0_8.index t 1 * 128 + 1 * l.val = l.val; rw [(idx_facts t).2.2.2.2.2.2.2.2.2]; omega

end Cert.KernelIdeal.EdgeBlocks

end
-- ==== Proof.EdgeEntryA.lean ====
/-
  The arrays the edge kernel's windows 0, 1, 2 stage, as the host lines before the region leave them: each is a
  per-edge vector padded on the right with a constant to 4,096,000 entries and viewed row-major as [32000,128]. Read off the
  host lines' composed valuation, one result buffer at a time.
-/
import proofs.«104057_j88433376625452_1_alg».proof.Proof.Gen.KernelIdeal.Frame.Runs
import Idealize.ShloMosaic.Lib.StableHlo.Run

noncomputable section

open Idealize.ShloMosaic Idealize.ShloMosaic.TcCoe Idealize.SL.Sem

namespace Cert.KernelIdeal.EdgeEntry

open Cert.KernelIdeal Cert.KernelIdeal.Gen

variable {F : FTy → Type} [FloatOps F]
variable (m : (ℓ : Loc nD τ sig) → Buf (Elt F) ℓ)

set_option maxRecDepth 16384 in
set_option maxHeartbeats 0 in
/-- Window 0's array is the row-major [32000,128] view of `%v42` padded on the right to 4,096,000. -/
theorem arr0_eq (c : Dev nD) :
    (V m c main_v73 : S32000x128.Idx → F .f32)
      = shapeCast S32000x128 (pad S4096000 ![0] ![96000] ![0] (V m c main_v42 : S4000000.Idx → F .f32) (V m c main_call2_v0 : S_.Idx → F .f32)
          pads_S4000000_S4096000_0960000 h_S_) shapeCasts_S4096000_S32000x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

set_option maxRecDepth 16384 in
set_option maxHeartbeats 0 in
/-- Window 1's array is the row-major [32000,128] view of `%v57` padded on the right to 4,096,000. -/
theorem arr1_eq (c : Dev nD) :
    (V m c main_v75 : S32000x128.Idx → F .f32)
      = shapeCast S32000x128 (pad S4096000 ![0] ![96000] ![0] (V m c main_v57 : S4000000.Idx → F .f32) (V m c main_call3_v0 : S_.Idx → F .f32)
          pads_S4000000_S4096000_0960000 h_S_) shapeCasts_S4096000_S32000x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

set_option maxRecDepth 16384 in
set_option maxHeartbeats 0 in
/-- Window 2's array is the row-major [32000,128] view of `%v64` padded on the right to 4,096,000. -/
theorem arr2_eq (c : Dev nD) :
    (V m c main_v77 : S32000x128.Idx → F .f32)
      = shapeCast S32000x128 (pad S4096000 ![0] ![96000] ![0] (V m c main_v64 : S4000000.Idx → F .f32) (V m c main_call4_v0 : S_.Idx → F .f32)
          pads_S4000000_S4096000_0960000 h_S_) shapeCasts_S4096000_S32000x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

end Cert.KernelIdeal.EdgeEntry

end
-- ==== Proof.EdgeEntryB.lean ====
/-
  The arrays the edge kernel's windows 3, 4, 5 stage, as the host lines before the region leave them: each is a
  per-edge vector padded on the right with a constant to 4,096,000 entries and viewed row-major as [32000,128]. Read off the
  host lines' composed valuation, one result buffer at a time.
-/
import proofs.«104057_j88433376625452_1_alg».proof.Proof.Gen.KernelIdeal.Frame.Runs
import Idealize.ShloMosaic.Lib.StableHlo.Run

noncomputable section

open Idealize.ShloMosaic Idealize.ShloMosaic.TcCoe Idealize.SL.Sem

namespace Cert.KernelIdeal.EdgeEntry

open Cert.KernelIdeal Cert.KernelIdeal.Gen

variable {F : FTy → Type} [FloatOps F]
variable (m : (ℓ : Loc nD τ sig) → Buf (Elt F) ℓ)

set_option maxRecDepth 16384 in
set_option maxHeartbeats 0 in
/-- Window 3's array is the row-major [32000,128] view of `%v71` padded on the right to 4,096,000. -/
theorem arr3_eq (c : Dev nD) :
    (V m c main_v79 : S32000x128.Idx → F .f32)
      = shapeCast S32000x128 (pad S4096000 ![0] ![96000] ![0] (V m c main_v71 : S4000000.Idx → F .f32) (V m c main_call5_v0 : S_.Idx → F .f32)
          pads_S4000000_S4096000_0960000 h_S_) shapeCasts_S4096000_S32000x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

set_option maxRecDepth 16384 in
set_option maxHeartbeats 0 in
/-- Window 4's array is the row-major [32000,128] view of `%arg6` padded on the right to 4,096,000. -/
theorem arr4_eq (c : Dev nD) :
    (V m c main_v81 : S32000x128.Idx → F .f32)
      = shapeCast S32000x128 (pad S4096000 ![0] ![96000] ![0] (V m c main_arg6 : S4000000.Idx → F .f32) (V m c main_call6_v0 : S_.Idx → F .f32)
          pads_S4000000_S4096000_0960000 h_S_) shapeCasts_S4096000_S32000x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

set_option maxRecDepth 16384 in
set_option maxHeartbeats 0 in
/-- Window 5's array is the row-major [32000,128] view of `%arg7` padded on the right to 4,096,000. -/
theorem arr5_eq (c : Dev nD) :
    (V m c main_v83 : S32000x128.Idx → F .f32)
      = shapeCast S32000x128 (pad S4096000 ![0] ![96000] ![0] (V m c main_arg7 : S4000000.Idx → F .f32) (V m c main_call7_v0 : S_.Idx → F .f32)
          pads_S4000000_S4096000_0960000 h_S_) shapeCasts_S4096000_S32000x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

end Cert.KernelIdeal.EdgeEntry

end
-- ==== Proof.EdgeEntryC.lean ====
/-
  The arrays the edge kernel's windows 6, 7, 8 stage, as the host lines before the region leave them: each is a
  per-edge vector padded on the right with a constant to 4,096,000 entries and viewed row-major as [32000,128]. Read off the
  host lines' composed valuation, one result buffer at a time.
-/
import proofs.«104057_j88433376625452_1_alg».proof.Proof.Gen.KernelIdeal.Frame.Runs
import Idealize.ShloMosaic.Lib.StableHlo.Run

noncomputable section

open Idealize.ShloMosaic Idealize.ShloMosaic.TcCoe Idealize.SL.Sem

namespace Cert.KernelIdeal.EdgeEntry

open Cert.KernelIdeal Cert.KernelIdeal.Gen

variable {F : FTy → Type} [FloatOps F]
variable (m : (ℓ : Loc nD τ sig) → Buf (Elt F) ℓ)

set_option maxRecDepth 16384 in
set_option maxHeartbeats 0 in
/-- Window 6's array is the row-major [32000,128] view of `%arg8` padded on the right to 4,096,000. -/
theorem arr6_eq (c : Dev nD) :
    (V m c main_v85 : S32000x128.Idx → F .f32)
      = shapeCast S32000x128 (pad S4096000 ![0] ![96000] ![0] (V m c main_arg8 : S4000000.Idx → F .f32) (V m c main_call8_v0 : S_.Idx → F .f32)
          pads_S4000000_S4096000_0960000 h_S_) shapeCasts_S4096000_S32000x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

set_option maxRecDepth 16384 in
set_option maxHeartbeats 0 in
/-- Window 7's array is the row-major [32000,128] view of `%arg9` padded on the right to 4,096,000. -/
theorem arr7_eq (c : Dev nD) :
    (V m c main_v87 : S32000x128.Idx → F .f32)
      = shapeCast S32000x128 (pad S4096000 ![0] ![96000] ![0] (V m c main_arg9 : S4000000.Idx → F .f32) (V m c main_call9_v0 : S_.Idx → F .f32)
          pads_S4000000_S4096000_0960000 h_S_) shapeCasts_S4096000_S32000x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

set_option maxRecDepth 16384 in
set_option maxHeartbeats 0 in
/-- Window 8's array is the row-major [32000,128] view of `%arg10` padded on the right to 4,096,000. -/
theorem arr8_eq (c : Dev nD) :
    (V m c main_v89 : S32000x128.Idx → F .f32)
      = shapeCast S32000x128 (pad S4096000 ![0] ![96000] ![0] (V m c main_arg10 : S4000000.Idx → F .f32) (V m c main_call10_v0 : S_.Idx → F .f32)
          pads_S4000000_S4096000_0960000 h_S_) shapeCasts_S4096000_S32000x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

end Cert.KernelIdeal.EdgeEntry

end
-- ==== Proof.EdgeEntry.lean ====
/-
  The edge kernel's nine staged arrays read at an element inside the per-edge vectors: at row `row` and lane `l` with
  `128·row + l < 4,000,000` each holds its vector's entry `128·row + l` (the padding lies past that).
-/
import proofs.«104057_j88433376625452_1_alg».proof.Proof.EdgeEntryA
import proofs.«104057_j88433376625452_1_alg».proof.Proof.EdgeEntryB
import proofs.«104057_j88433376625452_1_alg».proof.Proof.EdgeEntryC
import proofs.«104057_j88433376625452_1_alg».proof.Proof.EdgeBlocks

noncomputable section

open Idealize.ShloMosaic Idealize.ShloMosaic.TcCoe Idealize.SL.Sem Idealize.ShloMosaic.ValueIdx

namespace Cert.KernelIdeal.EdgeEntry

open Cert.KernelIdeal Cert.KernelIdeal.Gen Cert.KernelIdeal.EdgeBlocks

variable {F : FTy → Type} [FloatOps F]
variable (m : (ℓ : Loc nD τ sig) → Buf (Elt F) ℓ)

theorem entry0 (c : Dev nD) (row : Fin 32000) (l : Fin 128) (h : row.val * 128 + l.val < 4000000) :
    (V m c main_v73 : S32000x128.Idx → F .f32) (ix2 row l) = (V m c main_v42 : S4000000.Idx → F .f32) (ix1 ⟨row.val * 128 + l.val, h⟩) :=
  (congrFun (arr0_eq m c) (ix2 row l)).trans (padded_apply _ _ row l h)

theorem entry1 (c : Dev nD) (row : Fin 32000) (l : Fin 128) (h : row.val * 128 + l.val < 4000000) :
    (V m c main_v75 : S32000x128.Idx → F .f32) (ix2 row l) = (V m c main_v57 : S4000000.Idx → F .f32) (ix1 ⟨row.val * 128 + l.val, h⟩) :=
  (congrFun (arr1_eq m c) (ix2 row l)).trans (padded_apply _ _ row l h)

theorem entry2 (c : Dev nD) (row : Fin 32000) (l : Fin 128) (h : row.val * 128 + l.val < 4000000) :
    (V m c main_v77 : S32000x128.Idx → F .f32) (ix2 row l) = (V m c main_v64 : S4000000.Idx → F .f32) (ix1 ⟨row.val * 128 + l.val, h⟩) :=
  (congrFun (arr2_eq m c) (ix2 row l)).trans (padded_apply _ _ row l h)

theorem entry3 (c : Dev nD) (row : Fin 32000) (l : Fin 128) (h : row.val * 128 + l.val < 4000000) :
    (V m c main_v79 : S32000x128.Idx → F .f32) (ix2 row l) = (V m c main_v71 : S4000000.Idx → F .f32) (ix1 ⟨row.val * 128 + l.val, h⟩) :=
  (congrFun (arr3_eq m c) (ix2 row l)).trans (padded_apply _ _ row l h)

theorem entry4 (c : Dev nD) (row : Fin 32000) (l : Fin 128) (h : row.val * 128 + l.val < 4000000) :
    (V m c main_v81 : S32000x128.Idx → F .f32) (ix2 row l) = (V m c main_arg6 : S4000000.Idx → F .f32) (ix1 ⟨row.val * 128 + l.val, h⟩) :=
  (congrFun (arr4_eq m c) (ix2 row l)).trans (padded_apply _ _ row l h)

theorem entry5 (c : Dev nD) (row : Fin 32000) (l : Fin 128) (h : row.val * 128 + l.val < 4000000) :
    (V m c main_v83 : S32000x128.Idx → F .f32) (ix2 row l) = (V m c main_arg7 : S4000000.Idx → F .f32) (ix1 ⟨row.val * 128 + l.val, h⟩) :=
  (congrFun (arr5_eq m c) (ix2 row l)).trans (padded_apply _ _ row l h)

theorem entry6 (c : Dev nD) (row : Fin 32000) (l : Fin 128) (h : row.val * 128 + l.val < 4000000) :
    (V m c main_v85 : S32000x128.Idx → F .f32) (ix2 row l) = (V m c main_arg8 : S4000000.Idx → F .f32) (ix1 ⟨row.val * 128 + l.val, h⟩) :=
  (congrFun (arr6_eq m c) (ix2 row l)).trans (padded_apply _ _ row l h)

theorem entry7 (c : Dev nD) (row : Fin 32000) (l : Fin 128) (h : row.val * 128 + l.val < 4000000) :
    (V m c main_v87 : S32000x128.Idx → F .f32) (ix2 row l) = (V m c main_arg9 : S4000000.Idx → F .f32) (ix1 ⟨row.val * 128 + l.val, h⟩) :=
  (congrFun (arr7_eq m c) (ix2 row l)).trans (padded_apply _ _ row l h)

theorem entry8 (c : Dev nD) (row : Fin 32000) (l : Fin 128) (h : row.val * 128 + l.val < 4000000) :
    (V m c main_v89 : S32000x128.Idx → F .f32) (ix2 row l) = (V m c main_arg10 : S4000000.Idx → F .f32) (ix1 ⟨row.val * 128 + l.val, h⟩) :=
  (congrFun (arr8_eq m c) (ix2 row l)).trans (padded_apply _ _ row l h)

end Cert.KernelIdeal.EdgeEntry

end
-- ==== Proof.EdgeAccum.lean ====
/-
  The edge kernel's output row, point by point, at the ideal values. With the nine per-edge arrays named as the
  region finds them (four gathered on the host, five arguments), one grid point adds to lane `l` of the row the sum
  over its 2,000 rows of the log-density at position `(2000·t + r)·128 + l` — the density of the edge there below
  4,000,000, zero from there on: inside the vectors the padded blocks are the vectors and the mask is 1; past
  them the mask is 0 and the product is 0 whatever the padding computes. By induction on the point, after point `n`
  the row holds, lane by lane, zero plus those sums over the points up to `n`.
-/
import proofs.«104057_j88433376625452_1_alg».proof.Proof.Gen.KernelIdeal.Frame
import proofs.«104057_j88433376625452_1_alg».proof.Proof.EdgeSpec
import proofs.«104057_j88433376625452_1_alg».proof.Proof.EdgePieces
import proofs.«104057_j88433376625452_1_alg».proof.Proof.EdgePayload
import proofs.«104057_j88433376625452_1_alg».proof.Proof.EdgeBlocks
import proofs.«104057_j88433376625452_1_alg».proof.Proof.EdgeEntry

noncomputable section

open Idealize.ShloMosaic Idealize.ShloMosaic.TcCoe Idealize.SL.Sem Idealize.ShloMosaic.ValueIdx

namespace Cert.KernelIdeal.EdgeAccum

open Cert.KernelIdeal Cert.KernelIdeal.Gen Cert.EdgeSpec
open Cert.KernelIdeal.EdgePieces Cert.KernelIdeal.EdgePayload Cert.KernelIdeal.EdgeBlocks Cert.KernelIdeal.EdgeEntry

variable (m : (ℓ : Loc nD τ sig) → Buf (Elt Ideal) ℓ)

/-! ## The nine per-edge arrays at the region's entry -/
def X0 (c : Dev nD) (e : Fin 4000000) : EReal := V m c main_v42 (ix1 e)
def X1 (c : Dev nD) (e : Fin 4000000) : EReal := V m c main_v57 (ix1 e)
def X2 (c : Dev nD) (e : Fin 4000000) : EReal := V m c main_v64 (ix1 e)
def X3 (c : Dev nD) (e : Fin 4000000) : EReal := V m c main_v71 (ix1 e)
def X4 (c : Dev nD) (e : Fin 4000000) : EReal := V m c main_arg6 (ix1 e)
def X5 (c : Dev nD) (e : Fin 4000000) : EReal := V m c main_arg7 (ix1 e)
def X6 (c : Dev nD) (e : Fin 4000000) : EReal := V m c main_arg8 (ix1 e)
def X7 (c : Dev nD) (e : Fin 4000000) : EReal := V m c main_arg9 (ix1 e)
def X8 (c : Dev nD) (e : Fin 4000000) : EReal := V m c main_arg10 (ix1 e)

/-- The log-density at a position of those arrays (zero past their end). -/
def posLogp (c : Dev nD) (e : ℕ) : EReal := edgeAt (X0 m c) (X1 m c) (X2 m c) (X3 m c) (X4 m c) (X5 m c) (X6 m c) (X7 m c) (X8 m c) e

/-- ONE POINT, ONE LANE. -/
theorem point_lane (c : Dev nD) (t : Fin cfg0.N) (acc : FVec Ideal S1x128 .f32) (l : Fin 128) :
    k0_pay1 (F := Ideal) (BitVec.ofNat 32 (grid0.coords t 0).val) (k0_pay3 (iblk m c 8 t)) (k0_pay4 (iblk m c 1 t))
        (k0_pay5 (iblk m c 0 t) (iblk m c 1 t) (iblk m c 2 t) (iblk m c 4 t) (iblk m c 6 t) (iblk m c 7 t))
        (k0_pay6 (iblk m c 3 t)) (k0_pay7 (iblk m c 5 t)) acc (ix2 0 l)
      = acc (ix2 0 l) + ∑ r : Fin 2000, posLogp m c ((t.val * 2000 + r.val) * 128 + l.val) := by
  have hN : t.val < 16 := lt_of_lt_of_eq t.isLt (show cfg0.N = 16 from N_0)
  rw [coord_facts t]
  refine (pay1_apply t.val hN (iblk m c 0 t) (iblk m c 1 t) (iblk m c 2 t) (iblk m c 3 t) (iblk m c 4 t) (iblk m c 5 t) (iblk m c 6 t) (iblk m c 7 t) (iblk m c 8 t) acc l).trans ?_
  refine congrArg (acc (ix2 0 l) + ·) (Finset.sum_congr rfl fun r _ => ?_)
  have hrow : t.val * 2000 + r.val < 32000 := by have := r.isLt; omega
  unfold posLogp edgeAt
  by_cases h : (t.val * 2000 + r.val) * 128 + l.val < 4000000
  · rw [if_pos h, mul_one, dif_pos h]
    have e0 : (iblk m c 0 t : Vec Ideal S2000x128 .f32) (ix2 r l) = X0 m c ⟨(t.val * 2000 + r.val) * 128 + l.val, h⟩ :=
      (iblk0 m c t r l hrow).trans (entry0 m c ⟨t.val * 2000 + r.val, hrow⟩ l h)
    have e1 : (iblk m c 1 t : Vec Ideal S2000x128 .f32) (ix2 r l) = X1 m c ⟨(t.val * 2000 + r.val) * 128 + l.val, h⟩ :=
      (iblk1 m c t r l hrow).trans (entry1 m c ⟨t.val * 2000 + r.val, hrow⟩ l h)
    have e2 : (iblk m c 2 t : Vec Ideal S2000x128 .f32) (ix2 r l) = X2 m c ⟨(t.val * 2000 + r.val) * 128 + l.val, h⟩ :=
      (iblk2 m c t r l hrow).trans (entry2 m c ⟨t.val * 2000 + r.val, hrow⟩ l h)
    have e3 : (iblk m c 3 t : Vec Ideal S2000x128 .f32) (ix2 r l) = X3 m c ⟨(t.val * 2000 + r.val) * 128 + l.val, h⟩ :=
      (iblk3 m c t r l hrow).trans (entry3 m c ⟨t.val * 2000 + r.val, hrow⟩ l h)
    have e4 : (iblk m c 4 t : Vec Ideal S2000x128 .f32) (ix2 r l) = X4 m c ⟨(t.val * 2000 + r.val) * 128 + l.val, h⟩ :=
      (iblk4 m c t r l hrow).trans (entry4 m c ⟨t.val * 2000 + r.val, hrow⟩ l h)
    have e5 : (iblk m c 5 t : Vec Ideal S2000x128 .f32) (ix2 r l) = X5 m c ⟨(t.val * 2000 + r.val) * 128 + l.val, h⟩ :=
      (iblk5 m c t r l hrow).trans (entry5 m c ⟨t.val * 2000 + r.val, hrow⟩ l h)
    have e6 : (iblk m c 6 t : Vec Ideal S2000x128 .f32) (ix2 r l) = X6 m c ⟨(t.val * 2000 + r.val) * 128 + l.val, h⟩ :=
      (iblk6 m c t r l hrow).trans (entry6 m c ⟨t.val * 2000 + r.val, hrow⟩ l h)
    have e7 : (iblk m c 7 t : Vec Ideal S2000x128 .f32) (ix2 r l) = X7 m c ⟨(t.val * 2000 + r.val) * 128 + l.val, h⟩ :=
      (iblk7 m c t r l hrow).trans (entry7 m c ⟨t.val * 2000 + r.val, hrow⟩ l h)
    have e8 : (iblk m c 8 t : Vec Ideal S2000x128 .f32) (ix2 r l) = X8 m c ⟨(t.val * 2000 + r.val) * 128 + l.val, h⟩ :=
      (iblk8 m c t r l hrow).trans (entry8 m c ⟨t.val * 2000 + r.val, hrow⟩ l h)
    rw [e0, e1, e2, e3, e4, e5, e6, e7, e8]
  · rw [if_neg h, mul_zero, dif_neg h]

/-- Lane `l` of the row after point `n`: zero plus the points' sums so far. -/
def rowAfter (c : Dev nD) (n : ℕ) (l : Fin 128) : EReal :=
  Ideal.ofBits .f32 0x00000000#32
    + ∑ t ∈ Finset.range (n + 1), ∑ r : Fin 2000, posLogp m c ((t * 2000 + r.val) * 128 + l.val)

/-- THE ACCUMULATION, by induction on the point. -/
theorem outsAt_lane (c : Dev nD) : ∀ (n : ℕ) (h : n < cfg0.N) (l : Fin 128), outsAt0 m c n h (ix2 0 l) = rowAfter m c n l
  | 0, h, l => by
    have hA : outsAt0 m c 0 h = out0_A_9 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩)
        ((hcond0_0 ⟨0, h⟩).mpr (Nat.zero_mod _)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) := outsAt0_A m c ⟨0, h⟩ rfl
    rw [hA, out_A]
    refine (point_lane m c ⟨0, h⟩ (k0_pay2 (F := Ideal)) l).trans ?_
    unfold rowAfter
    rw [Finset.sum_range_one]
    rfl
  | n + 1, h, l => by
    have hN : cfg0.N = 16 := N_0
    have hB : ¬(⟨n + 1, h⟩ : Fin cfg0.N).val % 16 = 0 := by dsimp only; omega
    rw [outsAt0_B m c ⟨n + 1, h⟩ hB, out_B]
    refine (point_lane m c ⟨n + 1, h⟩ _ l).trans ?_
    show outsAt0 m c n _ (ix2 0 l) + _ = _
    rw [outsAt_lane c n _ l]
    unfold rowAfter
    rw [Finset.sum_range_succ (fun t => ∑ r : Fin 2000, posLogp m c ((t * 2000 + r.val) * 128 + l.val)) (n + 1), ← add_assoc]

end Cert.KernelIdeal.EdgeAccum

end
-- ==== Proof.EdgeKernel.lean ====
/-
  The edge kernel's scalar at the ideal values. The host's sum of the region's [1,128] row from zero is zero plus,
  over the 128 lanes, the 16 points and the 2,000 rows of a point, the log-density at position
  `(2000·t + r)·128 + l` — which re-indexed is the plain sum of the densities over the 4,000,000 edges.
-/
import proofs.«104057_j88433376625452_1_alg».proof.Proof.EdgeAccum
import proofs.«104057_j88433376625452_1_alg».proof.Proof.EdgeResult
import Idealize.ShloMosaic.PureOps.Ideal.Laws

noncomputable section

open Idealize.ShloMosaic Idealize.ShloMosaic.TcCoe Idealize.SL.Sem Idealize.ShloMosaic.ValueIdx

namespace Cert.KernelIdeal.EdgeKernel

open Cert.KernelIdeal Cert.KernelIdeal.Gen Cert.EdgeSpec Cert.KernelIdeal.EdgeAccum Cert.KernelIdeal.EdgeResult

variable (m : (ℓ : Loc nD τ sig) → Buf (Elt Ideal) ℓ)

/-- The row the last point leaves, summed from zero, is zero plus the sum over the edges. -/
theorem kernel_total (c : Dev nD) (i : S_.Idx) :
    Host.reduceAdd (F := Ideal) (outsAt0 m c 15 h15) (constant (F := Ideal) S_ .f32 0x00000000#32) reducesTo_S1x128_S_d0_1 h_S_ i
      = Ideal.ofBits .f32 0x00000000#32 + edgeSum (X0 m c) (X1 m c) (X2 m c) (X3 m c) (X4 m c) (X5 m c) (X6 m c) (X7 m c) (X8 m c) := by
  have e : Host.reduceAdd (F := Ideal) (outsAt0 m c 15 h15) (constant (F := Ideal) S_ .f32 0x00000000#32) reducesTo_S1x128_S_d0_1 h_S_ i
      = (constant (F := Ideal) S_ .f32 0x00000000#32) (Shape.Idx.first h_S_) + ∑ j : S1x128.Idx, (outsAt0 m c 15 h15 j : EReal) := by
    generalize outsAt0 m c 15 h15 = y0
    simp only [Host.reduceAdd, Ideal.hostReduceAdd_def]
    exact Ideal.hostReduceAdd_total reducesTo_S1x128_S_d0_1 (fun b => b.elim0) y0 _ i
  rw [e]
  refine congrArg₂ (· + ·) rfl ?_
  rw [sum_idx_row]
  have hl : ∀ l : Fin 128, (outsAt0 m c 15 h15 (ix2 0 l) : EReal)
      = ∑ t ∈ Finset.range 16, ∑ r : Fin 2000, posLogp m c ((t * 2000 + r.val) * 128 + l.val) := fun l => by
    rw [outsAt_lane m c 15 h15 l]
    unfold rowAfter
    rw [Ideal.ofBits_zero_f32, zero_add]
  rw [Finset.sum_congr rfl fun l _ => hl l]
  exact sum_blocks_edge (X0 m c) (X1 m c) (X2 m c) (X3 m c) (X4 m c) (X5 m c) (X6 m c) (X7 m c) (X8 m c)

end Cert.KernelIdeal.EdgeKernel

end
-- ==== Proof.EdgeRef.lean ====
/-
  The reference's edge term at the ideal values. Its last elementwise stage, read at an edge, is the log-density
  of the edge's nine values — the four gathered arrays left as the stages that compute them —, and its float sum over
  the 4,000,000 edges is the initial zero plus the plain sum of those densities.
-/
import proofs.«104057_j88433376625452_1_alg».proof.Proof.Gen.ReferenceIdeal.Read
import proofs.«104057_j88433376625452_1_alg».proof.Proof.EdgeSpec

noncomputable section

open Idealize.ShloMosaic Idealize.ShloMosaic.ValueIdx

namespace Cert.ReferenceIdeal.EdgeRef

open Cert.ReferenceIdeal Cert.ReferenceIdeal.Read Cert.EdgeSpec

/-- The stage before the sum, at an edge. -/
theorem logp_stage_apply (x0 x1 : (⟨S1000, .f32⟩ : BufTy).Contents (Elt Ideal)) (x2 x3 : (⟨S20000, .f32⟩ : BufTy).Contents (Elt Ideal))
    (x6 x7 x8 x9 x10 : (⟨S4000000, .f32⟩ : BufTy).Contents (Elt Ideal)) (x12 x13 x14 x15 : (⟨S4000000, .i32⟩ : BufTy).Contents (Elt Ideal)) (i : S4000000.Idx) :
    val_main_v99 (F := Ideal) x0 x1 x2 x3 x6 x7 x8 x9 x10 x12 x13 x14 x15 i
      = edgeLogp (val_main_v42 (F := Ideal) x0 x2 x12 x13 x15 i) (val_main_v57 (F := Ideal) x1 x3 x12 x13 x15 i)
          (val_main_v64 (F := Ideal) x2 x14 i) (val_main_v71 (F := Ideal) x3 x14 i) (x6 i) (x7 i) (x8 i) (x9 i) (x10 i) := by
  simp only [val_main_v99_apply, val_main_v98_apply, val_main_cst_22_apply, val_main_v97_apply, val_main_v96_apply, val_main_v95_apply, val_main_v94_apply, val_main_cst_21_apply, val_main_v93_apply, val_main_v92_apply, val_main_v91_apply, val_main_v90_apply, val_main_v89_apply, val_main_v88_apply, val_main_cst_20_apply, val_main_v87_apply, val_main_call3_v0_apply, val_main_call3_cst_apply, val_main_v86_apply, val_main_v85_apply, val_main_v84_apply, val_main_v83_apply, val_main_v82_apply, val_main_v81_apply, val_main_cst_19_apply, val_main_v80_apply, val_main_call2_v0_apply, val_main_call2_cst_apply, val_main_v79_apply, val_main_v78_apply, val_main_v77_apply, val_main_v76_apply, val_main_v75_apply, val_main_v74_apply, val_main_v73_apply, val_main_cst_18_apply, val_main_v72_apply]
  rfl

/-- The reference's sum over the edges. -/
theorem edge_total (x0 x1 : (⟨S1000, .f32⟩ : BufTy).Contents (Elt Ideal)) (x2 x3 : (⟨S20000, .f32⟩ : BufTy).Contents (Elt Ideal))
    (x6 x7 x8 x9 x10 : (⟨S4000000, .f32⟩ : BufTy).Contents (Elt Ideal)) (x12 x13 x14 x15 : (⟨S4000000, .i32⟩ : BufTy).Contents (Elt Ideal)) (i : S_.Idx) :
    val_main_v100 (F := Ideal) x0 x1 x2 x3 x6 x7 x8 x9 x10 x12 x13 x14 x15 i
      = Ideal.ofBits .f32 0x00000000#32
        + edgeSum (fun e => val_main_v42 (F := Ideal) x0 x2 x12 x13 x15 (ix1 e)) (fun e => val_main_v57 (F := Ideal) x1 x3 x12 x13 x15 (ix1 e))
            (fun e => val_main_v64 (F := Ideal) x2 x14 (ix1 e)) (fun e => val_main_v71 (F := Ideal) x3 x14 (ix1 e))
            (fun e => x6 (ix1 e)) (fun e => x7 (ix1 e)) (fun e => x8 (ix1 e)) (fun e => x9 (ix1 e)) (fun e => x10 (ix1 e)) := by
  rw [val_main_v100_apply, val_main_cst_23_apply]
  refine congrArg (Ideal.ofBits .f32 0x00000000#32 + ·) ?_
  rw [sum_idx1]
  exact Finset.sum_congr rfl fun e _ => logp_stage_apply x0 x1 x2 x3 x6 x7 x8 x9 x10 x12 x13 x14 x15 (ix1 e)

end Cert.ReferenceIdeal.EdgeRef

end
-- ==== Proof.EdgeBridgeA.lean ====
/-
  The kernel program's host lines before the region and the reference's first lines are the same operations on the
  same arguments: three of the four gathered per-edge arrays, as the region's entry holds them, are the reference's
  stages of the same arguments.
-/
import proofs.«104057_j88433376625452_1_alg».proof.Proof.Gen.KernelIdeal.Frame.Runs
import proofs.«104057_j88433376625452_1_alg».proof.Proof.Gen.ReferenceIdeal.Read
import Idealize.ShloMosaic.Lib.StableHlo.Run

noncomputable section

open Idealize.ShloMosaic Idealize.ShloMosaic.TcCoe Idealize.SL.Sem

namespace Cert.EdgeBridge

open Cert.KernelIdeal.Gen

variable {F : FTy → Type} [FloatOps F]
variable (m : (ℓ : Loc Cert.KernelIdeal.nD Cert.KernelIdeal.τ Cert.KernelIdeal.sig) → Buf (Elt F) ℓ)

set_option maxRecDepth 16384 in
set_option maxHeartbeats 0 in
/-- Per edge: argument 0 gathered at argument 13 where argument 15 is nonzero, argument 2 gathered at argument 12 elsewhere. -/
theorem v42_eq (c : Dev Cert.KernelIdeal.nD) :
    (V m c Cert.KernelIdeal.main_v42 : Cert.ReferenceIdeal.S4000000.Idx → F .f32)
      = Cert.ReferenceIdeal.Read.val_main_v42 (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg15)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

set_option maxRecDepth 16384 in
set_option maxHeartbeats 0 in
/-- Per edge: argument 1 gathered at argument 13 where argument 15 is nonzero, argument 3 gathered at argument 12 elsewhere. -/
theorem v57_eq (c : Dev Cert.KernelIdeal.nD) :
    (V m c Cert.KernelIdeal.main_v57 : Cert.ReferenceIdeal.S4000000.Idx → F .f32)
      = Cert.ReferenceIdeal.Read.val_main_v57 (F := F) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg15)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

set_option maxRecDepth 16384 in
set_option maxHeartbeats 0 in
/-- Per edge: argument 2 gathered at argument 14. -/
theorem v64_eq (c : Dev Cert.KernelIdeal.nD) :
    (V m c Cert.KernelIdeal.main_v64 : Cert.ReferenceIdeal.S4000000.Idx → F .f32)
      = Cert.ReferenceIdeal.Read.val_main_v64 (F := F) (m ((c.tc : Thread Cert.KernelIdeal.nD Cert.KernelIdeal.τ).loc Cert.KernelIdeal.main_arg2)) (m ((c.tc : Thread Cert.KernelIdeal.nD Cert.KernelIdeal.τ).loc Cert.KernelIdeal.main_arg14)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

end Cert.EdgeBridge

end
-- ==== Proof.EdgeBridgeB.lean ====
/-
  The fourth gathered per-edge array and the two scalar sums over the short arrays, as the kernel program's host lines
  leave them at the region's entry, are the reference's stages of the same arguments.
-/
import proofs.«104057_j88433376625452_1_alg».proof.Proof.Gen.KernelIdeal.Frame.Runs
import proofs.«104057_j88433376625452_1_alg».proof.Proof.Gen.ReferenceIdeal.Read
import Idealize.ShloMosaic.Lib.StableHlo.Run

noncomputable section

open Idealize.ShloMosaic Idealize.ShloMosaic.TcCoe Idealize.SL.Sem

namespace Cert.EdgeBridge

open Cert.KernelIdeal.Gen

variable {F : FTy → Type} [FloatOps F]
variable (m : (ℓ : Loc Cert.KernelIdeal.nD Cert.KernelIdeal.τ Cert.KernelIdeal.sig) → Buf (Elt F) ℓ)

set_option maxRecDepth 16384 in
set_option maxHeartbeats 0 in
/-- Per edge: argument 3 gathered at argument 14. -/
theorem v71_eq (c : Dev Cert.KernelIdeal.nD) :
    (V m c Cert.KernelIdeal.main_v71 : Cert.ReferenceIdeal.S4000000.Idx → F .f32)
      = Cert.ReferenceIdeal.Read.val_main_v71 (F := F) (m ((c.tc : Thread Cert.KernelIdeal.nD Cert.KernelIdeal.τ).loc Cert.KernelIdeal.main_arg3)) (m ((c.tc : Thread Cert.KernelIdeal.nD Cert.KernelIdeal.τ).loc Cert.KernelIdeal.main_arg14)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

set_option maxRecDepth 16384 in
set_option maxHeartbeats 0 in
/-- The sum over the 1,000 entries of the Gaussian log-density of argument 4 with mean argument 0 and deviation argument 1. -/
theorem v9_eq (c : Dev Cert.KernelIdeal.nD) :
    (V m c Cert.KernelIdeal.main_v9 : Cert.ReferenceIdeal.S_.Idx → F .f32)
      = Cert.ReferenceIdeal.Read.val_main_v9 (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

set_option maxRecDepth 16384 in
set_option maxHeartbeats 0 in
/-- Minus the sum over the 20,000 entries of (argument 11 − 1) times the Gaussian log-density of argument 5 with mean argument 2 and deviation argument 3. -/
theorem v24_eq (c : Dev Cert.KernelIdeal.nD) :
    (V m c Cert.KernelIdeal.main_v24 : Cert.ReferenceIdeal.S_.Idx → F .f32)
      = Cert.ReferenceIdeal.Read.val_main_v24 (F := F) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg11)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.append_nil, List.cons_append, List.nil_append]
  after_results_simp
  rfl

end Cert.EdgeBridge

end
-- ==== Proof.EdgeClaim.lean ====
/-
  The two programs' results are one extended real. Both negate the sum of the same two small sums and an edge
  term; the edge terms are both zero plus the plain sum of the log-density over the 4,000,000 edges of the same nine
  arrays — the reference's by its own stages, the kernel's by the re-indexing of its lanes, points and rows.
-/
import proofs.«104057_j88433376625452_1_alg».proof.Proof.EdgeKernel
import proofs.«104057_j88433376625452_1_alg».proof.Proof.EdgeRef
import proofs.«104057_j88433376625452_1_alg».proof.Proof.EdgeBridgeA
import proofs.«104057_j88433376625452_1_alg».proof.Proof.EdgeBridgeB

noncomputable section

open Idealize.ShloMosaic Idealize.ShloMosaic.TcCoe Idealize.SL.Sem Idealize.ShloMosaic.ValueIdx

namespace Cert.EdgeClaim

open Cert.KernelIdeal.Gen Cert.EdgeSpec Cert.EdgeBridge
open Cert.KernelIdeal.EdgeAccum Cert.KernelIdeal.EdgeResult Cert.KernelIdeal.EdgeKernel Cert.ReferenceIdeal.EdgeRef

variable (m : (ℓ : Loc Cert.KernelIdeal.nD Cert.KernelIdeal.τ Cert.KernelIdeal.sig) → Buf (Elt Ideal) ℓ)

/-- The edge terms agree. -/
theorem edge_term_eq (c : Dev Cert.KernelIdeal.nD) :
    Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      = Host.reduceAdd (F := Ideal) (outsAt0 m c 15 h15) (constant (F := Ideal) Cert.KernelIdeal.S_ .f32 0x00000000#32)
          Cert.KernelIdeal.Facts₀.reducesTo_S1x128_S_d0_1 Cert.KernelIdeal.Facts₀.h_S_ := by
  funext i
  rw [edge_total, kernel_total]
  refine congrArg (Ideal.ofBits .f32 0x00000000#32 + ·) ?_
  have e0 : (fun e : Fin 4000000 => Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg15)) (ix1 e)) = X0 m c :=
    funext fun e => by unfold X0; rw [v42_eq m c]
  have e1 : (fun e : Fin 4000000 => Cert.ReferenceIdeal.Read.val_main_v57 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg15)) (ix1 e)) = X1 m c :=
    funext fun e => by unfold X1; rw [v57_eq m c]
  have e2 : (fun e : Fin 4000000 => Cert.ReferenceIdeal.Read.val_main_v64 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg14)) (ix1 e)) = X2 m c :=
    funext fun e => by unfold X2; rw [v64_eq m c]
  have e3 : (fun e : Fin 4000000 => Cert.ReferenceIdeal.Read.val_main_v71 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg14)) (ix1 e)) = X3 m c :=
    funext fun e => by unfold X3; rw [v71_eq m c]
  have e4 : (fun e : Fin 4000000 => (m ((c.tc : Thread Cert.KernelIdeal.nD Cert.KernelIdeal.τ).loc Cert.KernelIdeal.main_arg6)) (ix1 e)) = X4 m c :=
    funext fun e => by unfold X4; rw [V_main_arg6 m c]
  have e5 : (fun e : Fin 4000000 => (m ((c.tc : Thread Cert.KernelIdeal.nD Cert.KernelIdeal.τ).loc Cert.KernelIdeal.main_arg7)) (ix1 e)) = X5 m c :=
    funext fun e => by unfold X5; rw [V_main_arg7 m c]
  have e6 : (fun e : Fin 4000000 => (m ((c.tc : Thread Cert.KernelIdeal.nD Cert.KernelIdeal.τ).loc Cert.KernelIdeal.main_arg8)) (ix1 e)) = X6 m c :=
    funext fun e => by unfold X6; rw [V_main_arg8 m c]
  have e7 : (fun e : Fin 4000000 => (m ((c.tc : Thread Cert.KernelIdeal.nD Cert.KernelIdeal.τ).loc Cert.KernelIdeal.main_arg9)) (ix1 e)) = X7 m c :=
    funext fun e => by unfold X7; rw [V_main_arg9 m c]
  have e8 : (fun e : Fin 4000000 => (m ((c.tc : Thread Cert.KernelIdeal.nD Cert.KernelIdeal.τ).loc Cert.KernelIdeal.main_arg10)) (ix1 e)) = X8 m c :=
    funext fun e => by unfold X8; rw [V_main_arg10 m c]
  rw [e0, e1, e2, e3, e4, e5, e6, e7, e8]

/-- THE RESULTS AGREE: the reference's last stage, of the kernel program's arguments, is the kernel program's result. -/
theorem result_eq (c : Dev Cert.KernelIdeal.nD) :
    Cert.ReferenceIdeal.Read.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      = Host.negf (addf (addf (V m c Cert.KernelIdeal.main_v9) (V m c Cert.KernelIdeal.main_v24))
          (Host.reduceAdd (F := Ideal) (outsAt0 m c 15 h15) (constant (F := Ideal) Cert.KernelIdeal.S_ .f32 0x00000000#32)
            Cert.KernelIdeal.Facts₀.reducesTo_S1x128_S_d0_1 Cert.KernelIdeal.Facts₀.h_S_)) := by
  unfold Cert.ReferenceIdeal.Read.val_main_v103 Cert.ReferenceIdeal.Read.val_main_v102 Cert.ReferenceIdeal.Read.val_main_v101
  rw [← v9_eq m c, ← v24_eq m c, edge_term_eq m c]

end Cert.EdgeClaim

end
-- ==== Proof.lean ====
/-
  The certificate of the edge log-likelihood kernel against its reference.

  Both programs compute `−(p + q + kterm)`: `p` and `q` are two small sums of Gaussian log-densities over the short
  arrays, and `kterm` is the sum over 4,000,000 edges of a conditional-Gaussian log-density of nine per-edge values, four
  of them gathered from the short arrays. The reference sums the 4,000,000 densities in one host reduction. The kernel
  program pads the nine per-edge vectors to 4,096,000, views them as 32,000 rows of 128 lanes, streams them through a
  16-point grid in blocks of 2,000 rows, multiplies each density by the mask of the positions below 4,000,000,
  accumulates the blocks' lane sums in one [1,128] row carried across the grid, and sums that row on the host.

  At the ideal values every operation is exact and addition of extended reals is commutative and associative, so the
  kernel's order of summation is immaterial; a masked-out position contributes `x · 0 = 0` whatever `x` is, an
  unmasked one `x · 1 = x`. Neither law needs finiteness, so the precondition is not used. The frames are the
  generated ones; the ideal pass rewrote nothing.
-/
import proofs.«104057_j88433376625452_1_alg».proof.Defs
import proofs.«104057_j88433376625452_1_alg».proof.Proof.Gen.Kernel
import proofs.«104057_j88433376625452_1_alg».proof.Proof.Gen.Kernel.Frame
import proofs.«104057_j88433376625452_1_alg».proof.Proof.Gen.KernelIdeal
import proofs.«104057_j88433376625452_1_alg».proof.Proof.Gen.KernelIdeal.Frame
import proofs.«104057_j88433376625452_1_alg».proof.Proof.Gen.ReferenceIdeal
import proofs.«104057_j88433376625452_1_alg».proof.Proof.Gen.Pre_finite_inputs
import proofs.«104057_j88433376625452_1_alg».proof.Proof.Gen.ReferenceIdeal.Run
import proofs.«104057_j88433376625452_1_alg».proof.Proof.Gen.ReferenceIdeal.Read
import proofs.«104057_j88433376625452_1_alg».proof.Proof.EdgeResult
import proofs.«104057_j88433376625452_1_alg».proof.Proof.EdgeClaim
import Idealize.ShloMosaic.Adequacy
import Idealize.ShloMosaic.Init

noncomputable section

namespace Cert.Proof

open Idealize.ShloMosaic Idealize.ShloMosaic.TcCoe Idealize.SL.Sem

/-- The word-level kernel program terminates without a fault and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel program's result on core `c`: minus the sum of the two small sums and the summed output row. -/
abbrev kernelResult (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v94) :=
  Host.negf (addf (addf (Cert.KernelIdeal.Gen.V m c Cert.KernelIdeal.main_v9) (Cert.KernelIdeal.Gen.V m c Cert.KernelIdeal.main_v24))
      (Host.reduceAdd (F := Ideal) (Cert.KernelIdeal.Gen.outsAt0 m c 15 Cert.KernelIdeal.EdgeResult.h15)
        (constant (F := Ideal) Cert.KernelIdeal.S_ .f32 0x00000000#32)
        Cert.KernelIdeal.Facts₀.reducesTo_S1x128_S_d0_1 Cert.KernelIdeal.Facts₀.h_S_))

/-- From memories that agree on the arguments both programs end, the kernel program's result at the term its run
    states and the reference's at its last stage of the same arguments: one extended real (`EdgeClaim.result_eq`). -/
theorem algebraic : Cert.algebraic_KernelIdeal_ReferenceIdeal := by
  intro m ρ m' ρ' _ hagree
  refine ⟨fun c => kernelResult m c, ?_, ?_⟩
  · exact Cert.KernelIdeal.EdgeResult.run (F := Ideal) m ρ
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v103_eq]
    rw [h0, h1, h2, h3, h4, h5, h6, h7, h8, h9, h10, h11, h12, h13, h14, h15]
    exact Cert.EdgeClaim.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
